-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S10000x10000 : Shape := ⟨2, ![10000, 10000]⟩
abbrev S512x10000 : Shape := ⟨2, ![512, 10000]⟩
abbrev S10000 : Shape := ⟨1, ![10000]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S512x10000 : S_.BroadcastsInDim S512x10000 (![] : Fin 0 → Fin S512x10000.rank)
  reducesTo_S512x10000_S_d0_1 : S512x10000.ReducesTo [0, 1] S_
  bcast_S_S10000 : S_.BroadcastsInDim S10000 (![] : Fin 0 → Fin S10000.rank)
  reducesTo_S10000_S_d0 : S10000.ReducesTo [0] S_

variable [Facts]

def fn_part1 {F : FTy → Type} [FloatOps F] (main_v13 : IVec S_ 1) (main_v16 : IVec S10000 1) : IVec S_ 1 :=
  let main_c_5 : IVec S_ 1 := constantI S_ 1 1#1
  let main_v17 : IVec S_ 1 := (fun x v => Host.reduce IntOp.andi x v reducesTo_S10000_S_d0 h_S_) main_v16 main_c_5
  let main_v18 : IVec S_ 1 := andi main_v13 main_v17
  main_v18

def fn {F : FTy → Type} [FloatOps F] (main_arg0 : FVec F S256x512 .f32) (main_arg1 : FVec F S10000x10000 .f32) (main_arg2 : FVec F S512x10000 .f32) (main_arg3 : FVec F S10000 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S512x10000 .f32 := Host.absf main_arg2
  let main_cst_2 : FVec F S_ .f32 := constant S_ .f32 0x7F800000#32
  let main_v10 : FVec F S512x10000 .f32 := broadcastInDim S512x10000 ![] bcast_S_S512x10000 main_cst_2
  let main_v11 : IVec S512x10000 1 := cmpf .olt main_v9 main_v10
  let main_c_3 : IVec S_ 1 := constantI S_ 1 1#1
  let main_v12 : IVec S_ 1 := (fun x v => Host.reduce IntOp.andi x v reducesTo_S512x10000_S_d0_1 h_S_) main_v11 main_c_3
  let main_v13 : IVec S_ 1 := andi main_v8 main_v12
  let main_v14 : FVec F S10000 .f32 := Host.absf main_arg3
  let main_cst_4 : FVec F S_ .f32 := constant S_ .f32 0x7F800000#32
  let main_v15 : FVec F S10000 .f32 := broadcastInDim S10000 ![] bcast_S_S10000 main_cst_4
  let main_v16 : IVec S10000 1 := cmpf .olt main_v14 main_v15
  fn_part1 (F := F) main_v13 main_v16
-- ==== Kernel.lean ====
abbrev S256x512 : Shape := ⟨2, ![256, 512]⟩
abbrev S10000x10000 : Shape := ⟨2, ![10000, 10000]⟩
abbrev S512x10000 : Shape := ⟨2, ![512, 10000]⟩
abbrev S10000 : Shape := ⟨1, ![10000]⟩
abbrev S10000x512 : Shape := ⟨2, ![10000, 512]⟩
abbrev S10000x1 : Shape := ⟨2, ![10000, 1]⟩
abbrev S10000x256 : Shape := ⟨2, ![10000, 256]⟩
abbrev S2000x512 : Shape := ⟨2, ![2000, 512]⟩
abbrev S200x10000 : Shape := ⟨2, ![200, 10000]⟩
abbrev S200x1 : Shape := ⟨2, ![200, 1]⟩
abbrev S200x256 : Shape := ⟨2, ![200, 256]⟩
abbrev S2000x256 : Shape := ⟨2, ![2000, 256]⟩
abbrev S256x10000 : Shape := ⟨2, ![256, 10000]⟩

abbrev nBuf : Space → Nat
  | .hbm => 10
  | .vmem => 10
  | .smem => 0
  | _ => 0

abbrev bufTy : (tb : Table) → Fin (tcTables nBuf tb) → BufTy
  | .hbm, ⟨0, _⟩ => ⟨S256x512, .f32⟩
  | .hbm, ⟨1, _⟩ => ⟨S10000x10000, .f32⟩
  | .hbm, ⟨2, _⟩ => ⟨S512x10000, .f32⟩
  | .hbm, ⟨3, _⟩ => ⟨S10000, .f32⟩
  | .hbm, ⟨4, _⟩ => ⟨S10000x512, .f32⟩
  | .hbm, ⟨5, _⟩ => ⟨S10000x512, .bf16⟩
  | .hbm, ⟨6, _⟩ => ⟨S256x512, .bf16⟩
  | .hbm, ⟨7, _⟩ => ⟨S10000x1, .f32⟩
  | .hbm, ⟨8, _⟩ => ⟨S10000x256, .f32⟩
  | .hbm, ⟨9, _⟩ => ⟨S256x10000, .f32⟩
  | .local _ .vmem, ⟨0, _⟩ => ⟨S2000x512, .bf16⟩
  | .local _ .vmem, ⟨1, _⟩ => ⟨S2000x512, .bf16⟩
  | .local _ .vmem, ⟨2, _⟩ => ⟨S256x512, .bf16⟩
  | .local _ .vmem, ⟨3, _⟩ => ⟨S200x10000, .f32⟩
  | .local _ .vmem, ⟨4, _⟩ => ⟨S200x10000, .f32⟩
  | .local _ .vmem, ⟨5, _⟩ => ⟨S200x1, .f32⟩
  | .local _ .vmem, ⟨6, _⟩ => ⟨S200x1, .f32⟩
  | .local _ .vmem, ⟨7, _⟩ => ⟨S200x256, .f32⟩
  | .local _ .vmem, ⟨8, _⟩ => ⟨S200x256, .f32⟩
  | .local _ .vmem, ⟨9, _⟩ => ⟨S10000x256, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![54], ![false]⟩

def k0_cond1 (i : grid0.Coords) : BitVec 1 :=
  let arg0 : BitVec 32 := BitVec.ofNat 32 (i 0).val
  let c5_i32 : BitVec 32 := 5#32
  let v0 : BitVec 1 := Scalar.cmpi .slt arg0 c5_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c2000_i32 : BitVec 32 := 2000#32
  let v11 : BitVec 32 := Scalar.muli arg0 c2000_i32
  let v12 : Index := Scalar.indexCast v11
  let c0_4 : Index := 0#32
  ![v12.toNat, 0]
def k0_cond2 (i : grid0.Coords) : BitVec 1 :=
  let arg0 : BitVec 32 := BitVec.ofNat 32 (i 0).val
  let c4_i32 : BitVec 32 := 4#32
  let v3 : BitVec 1 := Scalar.cmpi .sge arg0 c4_i32
  let v4 : BitVec 32 := Scalar.extui v3
  let c0_i32_0 : BitVec 32 := 0#32
  let v5 : BitVec 1 := Scalar.cmpi .ne v4 c0_i32_0
  v5

def cc0_transform_0 (i : grid0.Coords) : Fin 2 → Nat :=
  let arg0 : BitVec 32 := BitVec.ofNat 32 (i 0).val
  let c4_i32 : BitVec 32 := 4#32
  let v0 : BitVec 32 := Scalar.minsi arg0 c4_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S2000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S200x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S512x10000_S10000x512_1_0 : S512x10000.Transposes [1, 0] S10000x512
  bitsLt_bf16_f32 : FTy.bits .bf16 < FTy.bits .f32
  shapeCasts_S10000_S10000x1 : S10000.ShapeCasts S10000x1
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  h_S2000x256 : 0 < S2000x256.numel
  shapeCasts_S2000x256_S2000x256 : S2000x256.ShapeCasts S2000x256
  inb_S200x10000_S200x10000_0_0 : ∀ a, (![0, 0] : Fin 2 → Nat) a + S200x10000.size a ≤ S200x10000.size a
  h_S200x10000 : 0 < S200x10000.numel
  inb_S10000x256_S10000x256_0_0 : ∀ a, (![0, 0] : Fin 2 → Nat) a + S10000x256.size a ≤ S10000x256.size a
  h_S10000x256 : 0 < S10000x256.numel
  inb_S200x1_S200x1_0_0 : ∀ a, (![0, 0] : Fin 2 → Nat) a + S200x1.size a ≤ S200x1.size a
  h_S200x1 : 0 < S200x1.numel
  shapeCasts_S200x1_S200x1 : S200x1.ShapeCasts S200x1
  broadcasts_S200x1_S200x256 : S200x1.Broadcasts S200x256
  inb_S200x256_S200x256_0_0 : ∀ a, (![0, 0] : Fin 2 → Nat) a + S200x256.size a ≤ S200x256.size a
  h_S200x256 : 0 < S200x256.numel
  transposes_S10000x256_S256x10000_1_0 : S10000x256.Transposes [1, 0] S256x10000
  dot_S2000x512_S256x512_S2000x256_1_1_0_0_n_n_wf : DotDims.WF S2000x512 S256x512 S2000x256 [1] [1] [0] [0] [] []
  dot_S200x10000_S10000x256_S200x256_1_0_0_1_n_n_wf : DotDims.WF S200x10000 S10000x256 S200x256 [1] [0] [0] [1] [] []
  hrank0 : 0 < grid0.rank
  k0_off1_inb : ∀ i : grid0.Coords, ∀ (k0_h1 : k0_cond1 i = 1#1), ∀ a, (k0_off1 i) a + S2000x256.size a ≤ S10000x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S10000x512.size a
  hwx0_0 : ∀ i : grid0.Coords, EltTy.bits .bf16 = 32 ∨ (Rect.block (s := S10000x512) S2000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x1.size a ≤ S10000x1.size a
  hwx0_3 : ∀ i : grid0.Coords, EltTy.bits .f32 = 32 ∨ (Rect.block (s := S10000x1) S200x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x256.size a ≤ S10000x256.size a
  hwx0_4 : ∀ i : grid0.Coords, EltTy.bits .f32 = 32 ∨ (Rect.block (s := S10000x256) S200x256.size (cc0_transform_4 i) (hinb0_4 i)).WholeWords (EltTy.packing .f32)

variable [Facts₀]

def dot_S2000x512_S256x512_S2000x256_1_1_0_0_n_n : DotDims S2000x512 S256x512 S2000x256 where
  lhsContracting := [1]
  rhsContracting := [1]
  lhsNonContracting := [0]
  rhsNonContracting := [0]
  lhsBatch := []
  rhsBatch := []
  wf := dot_S2000x512_S256x512_S2000x256_1_1_0_0_n_n_wf
def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf

abbrev win0_0 : Pipeline.Window sig grid0 :=
  Pipeline.Window.ofSpec (Memref.whole main_v1) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S200x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S200x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S256x512 : Shape := ⟨2, ![256, 512]⟩
abbrev S10000x10000 : Shape := ⟨2, ![10000, 10000]⟩
abbrev S512x10000 : Shape := ⟨2, ![512, 10000]⟩
abbrev S10000 : Shape := ⟨1, ![10000]⟩
abbrev S256x10000 : Shape := ⟨2, ![256, 10000]⟩
abbrev S10000x256 : Shape := ⟨2, ![10000, 256]⟩
abbrev S1x10000 : Shape := ⟨2, ![1, 10000]⟩

abbrev nBuf : Space → Nat
  | .hbm => 11
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S10000x10000, .f32⟩
  | .hbm, ⟨2, _⟩ => ⟨S512x10000, .f32⟩
  | .hbm, ⟨3, _⟩ => ⟨S10000, .f32⟩
  | .hbm, ⟨4, _⟩ => ⟨S256x10000, .f32⟩
  | .hbm, ⟨5, _⟩ => ⟨S10000x256, .f32⟩
  | .hbm, ⟨6, _⟩ => ⟨S10000x256, .f32⟩
  | .hbm, ⟨7, _⟩ => ⟨S256x10000, .f32⟩
  | .hbm, ⟨8, _⟩ => ⟨S1x10000, .f32⟩
  | .hbm, ⟨9, _⟩ => ⟨S256x10000, .f32⟩
  | .hbm, ⟨10, _⟩ => ⟨S256x10000, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  transposes_S256x10000_S10000x256_1_0 : S256x10000.Transposes [1, 0] S10000x256
  transposes_S10000x256_S256x10000_1_0 : S10000x256.Transposes [1, 0] S256x10000
  bcast_S10000_S1x10000_1 : S10000.BroadcastsInDim S1x10000 (![1] : Fin 1 → Fin S1x10000.rank)
  bcast_S1x10000_S256x10000_0_1 : S1x10000.BroadcastsInDim S256x10000 (![0, 1] : Fin 2 → Fin S256x10000.rank)
  dot_S256x512_S512x10000_S256x10000_1_0_0_1_n_n_wf : DotDims.WF S256x512 S512x10000 S256x10000 [1] [0] [0] [1] [] []
  dot_S10000x10000_S10000x256_S10000x256_1_0_0_1_n_n_wf : DotDims.WF S10000x10000 S10000x256 S10000x256 [1] [0] [0] [1] [] []

variable [Facts₀]

def dot_S256x512_S512x10000_S256x10000_1_0_0_1_n_n : DotDims S256x512 S512x10000 S256x10000 where
  lhsContracting := [1]
  rhsContracting := [0]
  lhsNonContracting := [0]
  rhsNonContracting := [1]
  lhsBatch := []
  rhsBatch := []
  wf := dot_S256x512_S512x10000_S256x10000_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.BodyIdeal.Cases.lean ====
/-
  The grid of the layer's one kernel call has 54 points. Points 0..4 each compute one 2000-row slice of the
  transposed support sT and store it into the kernel's scratch; points 4..53 each multiply one 200-row block
  of A with the whole scratch and add the bias block, storing one 200-row block of the (transposed) result.
  This module decides, over the grid, where each of the body's two conditionals is taken, where the output
  window is idle (it is stored from point 4 on only, and not written back before), and where the slice
  stored at a point lies in the scratch; and it names the staging memrefs the body is called with.
-/
import proofs.«131987_g21835613733112_rerun558fix_23_35_alg».proof.Proof.Gen.KernelIdeal.Frame
import proofs.«131987_g21835613733112_rerun558fix_23_35_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals, in closed form over the grid -/

/-- The first conditional (build one slice of sT) is taken exactly at points 0..4. -/
theorem build_iff : ∀ t : Fin cfg0.N, k0_cond1 (grid0.coords t) = 1#1 ↔ t.val < 5 :=
  (by decide +kernel : ∀ t : Fin grid0.N, k0_cond1 (grid0.coords t) = 1#1 ↔ t.val < 5)

/-- The second conditional (one block of the result) is taken exactly from point 4 on. -/
theorem aggr_iff : ∀ t : Fin cfg0.N, k0_cond2 (grid0.coords t) = 1#1 ↔ 4 ≤ t.val :=
  (by decide +kernel : ∀ t : Fin grid0.N, k0_cond2 (grid0.coords t) = 1#1 ↔ 4 ≤ t.val)

/-- The slice stored at a building point `t` starts at row 2000·t, lane 0. -/
theorem slice_off : ∀ t : Fin cfg0.N, t.val < 5 → k0_off1 (grid0.coords t) = ![2000 * t.val, 0] :=
  (by decide +kernel : ∀ t : Fin grid0.N, t.val < 5 → k0_off1 (grid0.coords t) = ![2000 * t.val, 0])

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Before point 4 the output window is idle: nothing is stored into its buffer, -/
theorem idle4 : ∀ t : Fin cfg0.N, t.val < 4 → cfg0.idle 4 (grid0.coords t) = true := by decide +kernel
/-- and the buffer is not written back there. -/
theorem noFlush4 : ∀ t : Fin cfg0.N, t.val < 4 → (cfg0.win 4).flush t = false := by decide +kernel
/-- From point 4 on it is live. -/
theorem live4 : ∀ t : Fin cfg0.N, 4 ≤ t.val → cfg0.idle 4 (grid0.coords t) = false := by decide +kernel

end Cert.KernelIdeal.Body

end
-- ==== Proof.BodyIdeal.RunBuild.lean ====
/-
  The body at a point that only builds (points 0..3): it loads its block of Wᵀ and x, and stores their
  product — one 2000-row slice of sT — into the scratch over whatever the scratch held; the inputs' buffers
  and the output's buffer are handed back as they were.
-/
import proofs.«131987_g21835613733112_rerun558fix_23_35_alg».proof.Proof.BodyIdeal.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces the building point stores into the scratch (last first), with the body's triple: from the inputs'
    buffers at their blocks, the output's at `x4` and the scratch at `xs`, the body runs to the same with
    the scratch at those pieces written over `xs`. -/
noncomputable def runBuild (c : Dev nD) (i : grid0.Coords) (arg1 : Memref sig .tc .vmem S2000x512 .bf16) (harg1 : arg1.IsWhole) (arg2 : Memref sig .tc .vmem S256x512 .bf16) (harg2 : arg2.IsWhole) (arg3 : Memref sig .tc .vmem S200x10000 .f32) (harg3 : arg3.IsWhole) (arg4 : Memref sig .tc .vmem S200x1 .f32) (harg4 : arg4.IsWhole) (arg5 : Memref sig .tc .vmem S200x256 .f32) (harg5 : arg5.IsWhole) (arg6 : Memref sig .tc .vmem S10000x256 .f32) (harg6 : arg6.IsWhole)
    (hc0 : k0_cond1 i = 1#1) (hc1 : ¬ k0_cond2 i = 1#1) (x0 : Vec F S2000x512 .bf16) (x1 : Vec F S256x512 .bf16) (x2 : Vec F S200x10000 .f32) (x3 : Vec F S200x1 .f32) (xs : Vec F S10000x256 .f32) (x4 : Vec F S200x256 .f32) :
    { LS : List (View.Piece (Elt F) S10000x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (arg6.view.loc (c : Thread nD τ) ↦[arg6.view.set]{fullShare} arg6.view.writes (Elt F) (harg6.unread xs) LS)) -∗ K ⟨⟩))
          ⊢ wp frame (wpE (defs₀ (F := F)) Variants.none c none) E (cc0__gcn_kernel i arg1 harg1 arg2 harg2 arg3 harg3 arg4 harg4 arg5 harg5 arg6 harg6) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg1.eq_unread hf0; obtain rfl := harg2.eq_unread hf1; obtain rfl := harg3.eq_unread hf2
    obtain rfl := harg4.eq_unread hf3; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists f4; isplitr; · ipureintro; exact hf4
      iexact H4
    iexact HS

end Cert.KernelIdeal.Body

end
-- ==== Proof.BodyIdeal.RunBoth.lean ====
/-
  The body at point 4, which does both: it stores the last 2000-row slice of sT into the scratch, then loads
  the whole scratch — its own slice included — with its block of A and its bias block, and stores
  (A-block · scratch) + bias into the output's buffer.
-/
import proofs.«131987_g21835613733112_rerun558fix_23_35_alg».proof.Proof.BodyIdeal.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces point 4 stores into the output's buffer and into the scratch, with the body's triple: from the
    inputs' buffers at their blocks, the output's at anything and the scratch at `xs`, the body runs to the
    inputs as they were, the output's buffer at its pieces written and the scratch at its pieces written over `xs`. -/
noncomputable def runBoth (c : Dev nD) (i : grid0.Coords) (arg1 : Memref sig .tc .vmem S2000x512 .bf16) (harg1 : arg1.IsWhole) (arg2 : Memref sig .tc .vmem S256x512 .bf16) (harg2 : arg2.IsWhole) (arg3 : Memref sig .tc .vmem S200x10000 .f32) (harg3 : arg3.IsWhole) (arg4 : Memref sig .tc .vmem S200x1 .f32) (harg4 : arg4.IsWhole) (arg5 : Memref sig .tc .vmem S200x256 .f32) (harg5 : arg5.IsWhole) (arg6 : Memref sig .tc .vmem S10000x256 .f32) (harg6 : arg6.IsWhole)
    (hc0 : k0_cond1 i = 1#1) (hc1 : k0_cond2 i = 1#1) (x0 : Vec F S2000x512 .bf16) (x1 : Vec F S256x512 .bf16) (x2 : Vec F S200x10000 .f32) (x3 : Vec F S200x1 .f32) (xs : Vec F S10000x256 .f32) :
    Σ' (L4 : List (View.Piece (Elt F) S200x256 .f32)), { LS : List (View.Piece (Elt F) S10000x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (arg6.view.loc (c : Thread nD τ) ↦[arg6.view.set]{fullShare} arg6.view.writes (Elt F) (harg6.unread xs) LS)) -∗ K ⟨⟩))
          ⊢ wp frame (wpE (defs₀ (F := F)) Variants.none c none) E (cc0__gcn_kernel i arg1 harg1 arg2 harg2 arg3 harg3 arg4 harg4 arg5 harg5 arg6 harg6) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%d4, %f4, %hf4, H4⟩, ⟨%fs, %hfs, HS⟩, Hk⟩
    obtain rfl := harg1.eq_unread hf0; obtain rfl := harg2.eq_unread hf1; obtain rfl := harg3.eq_unread hf2
    obtain rfl := harg4.eq_unread hf3; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    iexact HS

end Cert.KernelIdeal.Body

end
-- ==== Proof.BodyIdeal.RunAggr.lean ====
/-
  The body at a point that only aggregates (points 5..53): it loads its block of A, the whole scratch and its
  bias block, and stores (A-block · scratch) + bias into the output's buffer; the scratch and the inputs'
  buffers are handed back as they were.
-/
import proofs.«131987_g21835613733112_rerun558fix_23_35_alg».proof.Proof.BodyIdeal.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces the aggregating point stores into the output's buffer, with the body's triple: from the inputs'
    buffers at their blocks, the output's at anything and the scratch at `xs`, the body runs to the same with
    the output's buffer at those pieces written. -/
noncomputable def runAggr (c : Dev nD) (i : grid0.Coords) (arg1 : Memref sig .tc .vmem S2000x512 .bf16) (harg1 : arg1.IsWhole) (arg2 : Memref sig .tc .vmem S256x512 .bf16) (harg2 : arg2.IsWhole) (arg3 : Memref sig .tc .vmem S200x10000 .f32) (harg3 : arg3.IsWhole) (arg4 : Memref sig .tc .vmem S200x1 .f32) (harg4 : arg4.IsWhole) (arg5 : Memref sig .tc .vmem S200x256 .f32) (harg5 : arg5.IsWhole) (arg6 : Memref sig .tc .vmem S10000x256 .f32) (harg6 : arg6.IsWhole)
    (hc0 : ¬ k0_cond1 i = 1#1) (hc1 : k0_cond2 i = 1#1) (x0 : Vec F S2000x512 .bf16) (x1 : Vec F S256x512 .bf16) (x2 : Vec F S200x10000 .f32) (x3 : Vec F S200x1 .f32) (xs : Vec F S10000x256 .f32) :
    { L4 : List (View.Piece (Elt F) S200x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ owns (c : Thread nD τ) arg6 fullShare xs) -∗ K ⟨⟩))
          ⊢ wp frame (wpE (defs₀ (F := F)) Variants.none c none) E (cc0__gcn_kernel i arg1 harg1 arg2 harg2 arg3 harg3 arg4 harg4 arg5 harg5 arg6 harg6) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%d4, %f4, %hf4, H4⟩, ⟨%fs, %hfs, HS⟩, Hk⟩
    obtain rfl := harg1.eq_unread hf0; obtain rfl := harg2.eq_unread hf1; obtain rfl := harg3.eq_unread hf2
    obtain rfl := harg4.eq_unread hf3; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    iexists _; isplitr; · ipureintro; exact harg6.read_unread _
    iexact HS

end Cert.KernelIdeal.Body

end
-- ==== Proof.BodyIdeal.Data.lean ====
/-
  What the kernel's scratch and output hold, point by point, in closed form.

  The scratch sT has 10000 rows; row k lies in slice ⌊k / 2000⌋ (built at the point of that number) at row
  k mod 2000 of that slice. `sFull` is the whole scratch once all five slices are built: row k, lane q is the
  building point's product of its Wᵀ-block and x at (k mod 2000, q). Before point n the scratch agrees with
  `sFull` on its first min n 5 slices (`Built`) and holds anything below them. From point 4 on the output's
  buffer is left at (A-block · sFull) + bias-block (`outBlk`).
-/
import proofs.«131987_g21835613733112_rerun558fix_23_35_alg».proof.Proof.BodyIdeal.Cases
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the body is called with at a point -/

abbrev ms0 (t : Fin cfg0.N) : Memref sig .tc .vmem S2000x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S200x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S200x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S200x256 .f32 := win0_4.stage (cfg0.slots t 4)
abbrev hs4 (t : Fin cfg0.N) : (ms4 t).IsWhole := hstage0_4 ((cfg0.slots t 4).cast nbuf0_4)
/-- The scratch: a whole buffer of the kernel's own. -/
abbrev scM : Memref sig .tc .vmem S10000x256 .f32 := Memref.whole cc0_scratch0
abbrev hsc : (scM).IsWhole := Memref.isWhole_whole _

theorem N54 : cfg0.N = 54 := N_0

/-- What the launch hands the region beside the windows: the scratch at some contents and the generator register. -/
theorem launchInv_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The scratch in closed form -/

/-- The point that builds the slice row `j 0` lies in. -/
def sliceOf (j : S10000x256.Idx) : Fin cfg0.N :=
  ⟨(j 0).val / 2000, by have h : (j 0).val < 10000 := (j 0).isLt; have := N54; omega⟩

/-- The row's place inside its slice. -/
def inSlice (j : S10000x256.Idx) : S2000x256.Idx :=
  ValueIdx.ix2 (⟨(j 0).val % 2000, Nat.mod_lt _ (by decide)⟩ : Fin 2000) (j 1)

/-- The whole transposed support as the five building points leave it. -/
def sFull (c : Dev nD) : Vec F S10000x256 .f32 := fun j =>
  k0_pay1 (iblk m c 0 (sliceOf j)) (iblk m c 1 (sliceOf j)) (inSlice j)

/-- Contents `S` of the scratch that agree with `sFull` on the slices built before point `n`. -/
def Built (c : Dev nD) (n : ℕ) (S : Vec F S10000x256 .f32) : Prop :=
  ∀ j : S10000x256.Idx, (j 0).val < 2000 * min n 5 → S j = sFull m c j

/-- Nothing is asked before the first point. -/
theorem built_zero (c : Dev nD) (S : Vec F S10000x256 .f32) : Built m c 0 S := fun j h => by
  rw [Nat.zero_min, Nat.mul_zero] at h; exact absurd h (Nat.not_lt_zero _)

/-- Once five slices are built the scratch IS `sFull`. -/
theorem built_full (c : Dev nD) (n : ℕ) (hn : 5 ≤ n) (S : Vec F S10000x256 .f32) (h : Built m c n S) : S = sFull m c :=
  funext fun j => h j (by have h0 : (j 0).val < 10000 := (j 0).isLt; have : min n 5 = 5 := by omega
                          rw [this]; omega)

/-- From the fifth point on nothing more is built. -/
theorem built_mono (c : Dev nD) (n : ℕ) (hn : 5 ≤ n) (S : Vec F S10000x256 .f32) (h : Built m c n S) : Built m c (n + 1) S :=
  fun j hj => h j (by have : min n 5 = 5 := by omega
                      have : min (n + 1) 5 = 5 := by omega
                      omega)

/-- What an aggregating point leaves in the output's buffer. -/
def outBlk (c : Dev nD) (t : Fin cfg0.N) : Vec F S200x256 .f32 :=
  k0_pay2 (iblk m c 2 t) (sFull m c) (iblk m c 3 t)

/-! ## The region's invariant and the proof data -/

/-- Before position `n`: the scratch at some contents built so far, and the generator register at some state. -/
def PhiS (c : Dev nD) (n : ℕ) : sProp 𝕄 :=
  iprop(iprop(∃ S : Vec F S10000x256 .f32, ⌜Built m c n S⌝ ∗ owns (c : Thread nD τ) scM fullShare S) ∗ (∃ r, prngReg c r))

/-- The proof data of the one pipeline on core `c`: the arrays as the region finds them; after the body at a
    point each input's buffer at its block and the output's at `outBlk`; the invariant `PhiS`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk m c t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outBlk m c t := by dsimp only [dats]

/-- Each input's current buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

end Cert.KernelIdeal.Body

end
-- ==== Proof.BodyIdeal.Steps.lean ====
/-
  What the body's stores leave, read back.

  A building point stores ONE piece into the scratch: the unit-stride rectangle of 2000 rows by 256 lanes at row
  offset 2000·n, holding the product of its Wᵀ-block and x. Read back at a row inside that rectangle the scratch
  holds the product at the row's place in the slice; at any other row it holds what it held before. An
  aggregating point stores ONE piece into the output's buffer, the whole block, so the buffer reads back as that
  payload: (A-block · scratch) + bias-block, with the scratch as the point found it (or, at point 4, as its own
  store left it). From these: each building point extends what is built by its slice.
-/
import proofs.«131987_g21835613733112_rerun558fix_23_35_alg».proof.Proof.BodyIdeal.RunBuild
import proofs.«131987_g21835613733112_rerun558fix_23_35_alg».proof.Proof.BodyIdeal.RunBoth
import proofs.«131987_g21835613733112_rerun558fix_23_35_alg».proof.Proof.BodyIdeal.RunAggr
import proofs.«131987_g21835613733112_rerun558fix_23_35_alg».proof.Proof.BodyIdeal.Data
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-! ## One slice stored over prior contents -/

/-- Inside the stored rectangle the scratch reads the payload at the row's place in the slice. -/
theorem slice_inside (arg6 : Memref sig .tc .vmem S10000x256 .f32) (f : arg6.view.ty.Contents (Elt F))
    (off : Fin 2 → Nat) (inb : ∀ a, off a + (![2000, 256] : Fin 2 → Nat) a ≤ S10000x256.size a)
    (w : (Rect.unit (s := S10000x256) off ![2000, 256] inb).shape.Idx → Elt F .f32) (n : ℕ) (hoff : off = ![2000 * n, 0])
    (j : S10000x256.Idx) (y : (Rect.unit (s := S10000x256) off ![2000, 256] inb).shape.Idx)
    (h0 : (j 0).val = 2000 * n + (y 0).val) (h1 : (j 1).val = (y 1).val) :
    arg6.view.read (Elt F) (arg6.view.writes (Elt F) f [⟨Rect.unit (s := S10000x256) off ![2000, 256] inb, w⟩]) j = w y := by
  subst hoff
  have e : j = (Rect.unit (s := S10000x256) ![2000 * n, 0] ![2000, 256] inb).emb y := by
    funext a
    apply Fin.ext
    rw [Rect.emb_apply, Rect.off_unit, Rect.stride_unit]
    match a with
    | ⟨0, _⟩ => show (j 0).val = 2000 * n + 1 * (y 0).val; omega
    | ⟨1, _⟩ => show (j 1).val = 0 + 1 * (y 1).val; omega
  rw [e]
  exact View.read_writes_cons_emb _ _ _ _ [] y

/-- Outside it the scratch reads what it held before. -/
theorem slice_outside (arg6 : Memref sig .tc .vmem S10000x256 .f32) (f : arg6.view.ty.Contents (Elt F))
    (off : Fin 2 → Nat) (inb : ∀ a, off a + (![2000, 256] : Fin 2 → Nat) a ≤ S10000x256.size a)
    (w : (Rect.unit (s := S10000x256) off ![2000, 256] inb).shape.Idx → Elt F .f32) (n : ℕ) (hoff : off = ![2000 * n, 0])
    (j : S10000x256.Idx) (h : (j 0).val < 2000 * n ∨ 2000 * n + 2000 ≤ (j 0).val) :
    arg6.view.read (Elt F) (arg6.view.writes (Elt F) f [⟨Rect.unit (s := S10000x256) off ![2000, 256] inb, w⟩]) j
      = arg6.view.read (Elt F) f j := by
  subst hoff
  refine View.read_writes_apply_of_forall_not_mem _ _ j _ (fun p hp => ?_)
  rw [List.mem_singleton] at hp
  subst hp
  rw [Rect.mem_set_unit]
  intro hall
  have h0 : 2000 * n ≤ (j 0).val ∧ (j 0).val < 2000 * n + 2000 := hall 0
  omega

/-- One store of the whole block: the buffer reads back as the payload, whatever it held. -/
theorem whole_block (arg5 : Memref sig .tc .vmem S200x256 .f32) (f : arg5.view.ty.Contents (Elt F))
    (off : Fin 2 → Nat) (inb : ∀ a, off a + (![200, 256] : Fin 2 → Nat) a ≤ S200x256.size a) (hoff : off = ![0, 0])
    (w : (Rect.unit (s := S200x256) off ![200, 256] inb).shape.Idx → Elt F .f32) :
    arg5.view.read (Elt F) (arg5.view.writes (Elt F) f [⟨Rect.unit (s := S200x256) off ![200, 256] inb, w⟩]) = w := by
  subst hoff
  funext y
  have e : y = (Rect.unit (s := S200x256) ![0, 0] ![200, 256] inb).emb y := by
    funext a
    apply Fin.ext
    rw [Rect.emb_apply, Rect.off_unit, Rect.stride_unit]
    match a with
    | ⟨0, _⟩ => show (y 0).val = 0 + 1 * (y 0).val; omega
    | ⟨1, _⟩ => show (y 1).val = 0 + 1 * (y 1).val; omega
  have h := View.read_writes_cons_emb arg5.view f (Rect.unit (s := S200x256) ![0, 0] ![200, 256] inb) w [] y
  rw [← e] at h
  exact h

/-! ## The output's buffer after an aggregating point -/

/-- Points 5..53: the buffer reads back as (A-block · scratch) + bias-block, the scratch as the point found it. -/
theorem out_of_aggr (c : Dev nD) (i : grid0.Coords) (arg1 : Memref sig .tc .vmem S2000x512 .bf16) (harg1 : arg1.IsWhole) (arg2 : Memref sig .tc .vmem S256x512 .bf16) (harg2 : arg2.IsWhole) (arg3 : Memref sig .tc .vmem S200x10000 .f32) (harg3 : arg3.IsWhole) (arg4 : Memref sig .tc .vmem S200x1 .f32) (harg4 : arg4.IsWhole) (arg5 : Memref sig .tc .vmem S200x256 .f32) (harg5 : arg5.IsWhole) (arg6 : Memref sig .tc .vmem S10000x256 .f32) (harg6 : arg6.IsWhole)
    (hc0 : ¬ k0_cond1 i = 1#1) (hc1 : k0_cond2 i = 1#1) (x0 : Vec F S2000x512 .bf16) (x1 : Vec F S256x512 .bf16) (x2 : Vec F S200x10000 .f32) (x3 : Vec F S200x1 .f32) (xs : Vec F S10000x256 .f32) (f : arg5.view.ty.Contents (Elt F)) :
    arg5.view.read (Elt F) (arg5.view.writes (Elt F) f (runAggr c i arg1 harg1 arg2 harg2 arg3 harg3 arg4 harg4 arg5 harg5 arg6 harg6 hc0 hc1 x0 x1 x2 x3 xs).1)
      = k0_pay2 x2 xs x3 := by
  unfold runAggr
  dsimp only
  refine (whole_block arg5 f _ _ rfl _).trans ?_
  simp only [View.readAt_eq_ld, harg3.read_unread, harg4.read_unread, harg6.read_unread, View.ld_unit_zero (S := S200x10000) hz,
    View.ld_unit_zero (S := S10000x256) hz, View.ld_unit_zero (S := S200x1) hz]

/-- Point 4: the same with the scratch as the point's own store left it. -/
theorem out_of_both (c : Dev nD) (i : grid0.Coords) (arg1 : Memref sig .tc .vmem S2000x512 .bf16) (harg1 : arg1.IsWhole) (arg2 : Memref sig .tc .vmem S256x512 .bf16) (harg2 : arg2.IsWhole) (arg3 : Memref sig .tc .vmem S200x10000 .f32) (harg3 : arg3.IsWhole) (arg4 : Memref sig .tc .vmem S200x1 .f32) (harg4 : arg4.IsWhole) (arg5 : Memref sig .tc .vmem S200x256 .f32) (harg5 : arg5.IsWhole) (arg6 : Memref sig .tc .vmem S10000x256 .f32) (harg6 : arg6.IsWhole)
    (hc0 : k0_cond1 i = 1#1) (hc1 : k0_cond2 i = 1#1) (x0 : Vec F S2000x512 .bf16) (x1 : Vec F S256x512 .bf16) (x2 : Vec F S200x10000 .f32) (x3 : Vec F S200x1 .f32) (xs : Vec F S10000x256 .f32) (f : arg5.view.ty.Contents (Elt F)) :
    arg5.view.read (Elt F) (arg5.view.writes (Elt F) f (runBoth c i arg1 harg1 arg2 harg2 arg3 harg3 arg4 harg4 arg5 harg5 arg6 harg6 hc0 hc1 x0 x1 x2 x3 xs).1)
      = k0_pay2 x2 (arg6.view.read (Elt F) (arg6.view.writes (Elt F) (harg6.unread xs) (runBoth c i arg1 harg1 arg2 harg2 arg3 harg3 arg4 harg4 arg5 harg5 arg6 harg6 hc0 hc1 x0 x1 x2 x3 xs).2.1)) x3 := by
  unfold runBoth
  dsimp only
  refine (whole_block arg5 f _ _ rfl _).trans ?_
  simp only [View.readAt_eq_ld, harg3.read_unread, harg4.read_unread, View.ld_unit_zero (S := S200x10000) hz,
    View.ld_unit_zero (S := S10000x256) hz, View.ld_unit_zero (S := S200x1) hz]

/-! ## The scratch after a building point -/

theorem scratch_of_build_in (c : Dev nD) (i : grid0.Coords) (arg1 : Memref sig .tc .vmem S2000x512 .bf16) (harg1 : arg1.IsWhole) (arg2 : Memref sig .tc .vmem S256x512 .bf16) (harg2 : arg2.IsWhole) (arg3 : Memref sig .tc .vmem S200x10000 .f32) (harg3 : arg3.IsWhole) (arg4 : Memref sig .tc .vmem S200x1 .f32) (harg4 : arg4.IsWhole) (arg5 : Memref sig .tc .vmem S200x256 .f32) (harg5 : arg5.IsWhole) (arg6 : Memref sig .tc .vmem S10000x256 .f32) (harg6 : arg6.IsWhole)
    (hc0 : k0_cond1 i = 1#1) (hc1 : ¬ k0_cond2 i = 1#1) (x0 : Vec F S2000x512 .bf16) (x1 : Vec F S256x512 .bf16) (x2 : Vec F S200x10000 .f32) (x3 : Vec F S200x1 .f32) (xs : Vec F S10000x256 .f32) (x4 : Vec F S200x256 .f32) (n : ℕ) (hoff : k0_off1 i = ![2000 * n, 0])
    (j : S10000x256.Idx) (y : S2000x256.Idx) (h0 : (j 0).val = 2000 * n + (y 0).val) (h1 : (j 1).val = (y 1).val) :
    arg6.view.read (Elt F) (arg6.view.writes (Elt F) (harg6.unread xs) (runBuild c i arg1 harg1 arg2 harg2 arg3 harg3 arg4 harg4 arg5 harg5 arg6 harg6 hc0 hc1 x0 x1 x2 x3 xs x4).1) j
      = k0_pay1 x0 x1 y := by
  unfold runBuild
  dsimp only
  simp only [View.readAt_eq_ld, harg1.read_unread, harg2.read_unread, View.ld_unit_zero (S := S2000x512) hz,
    View.ld_unit_zero (S := S256x512) hz]
  exact slice_inside arg6 _ _ _ _ n hoff j y h0 h1

theorem scratch_of_build_out (c : Dev nD) (i : grid0.Coords) (arg1 : Memref sig .tc .vmem S2000x512 .bf16) (harg1 : arg1.IsWhole) (arg2 : Memref sig .tc .vmem S256x512 .bf16) (harg2 : arg2.IsWhole) (arg3 : Memref sig .tc .vmem S200x10000 .f32) (harg3 : arg3.IsWhole) (arg4 : Memref sig .tc .vmem S200x1 .f32) (harg4 : arg4.IsWhole) (arg5 : Memref sig .tc .vmem S200x256 .f32) (harg5 : arg5.IsWhole) (arg6 : Memref sig .tc .vmem S10000x256 .f32) (harg6 : arg6.IsWhole)
    (hc0 : k0_cond1 i = 1#1) (hc1 : ¬ k0_cond2 i = 1#1) (x0 : Vec F S2000x512 .bf16) (x1 : Vec F S256x512 .bf16) (x2 : Vec F S200x10000 .f32) (x3 : Vec F S200x1 .f32) (xs : Vec F S10000x256 .f32) (x4 : Vec F S200x256 .f32) (n : ℕ) (hoff : k0_off1 i = ![2000 * n, 0])
    (j : S10000x256.Idx) (h : (j 0).val < 2000 * n ∨ 2000 * n + 2000 ≤ (j 0).val) :
    arg6.view.read (Elt F) (arg6.view.writes (Elt F) (harg6.unread xs) (runBuild c i arg1 harg1 arg2 harg2 arg3 harg3 arg4 harg4 arg5 harg5 arg6 harg6 hc0 hc1 x0 x1 x2 x3 xs x4).1) j
      = xs j := by
  unfold runBuild
  dsimp only
  rw [slice_outside arg6 _ _ _ _ n hoff j h, harg6.read_unread]

theorem scratch_of_both_in (c : Dev nD) (i : grid0.Coords) (arg1 : Memref sig .tc .vmem S2000x512 .bf16) (harg1 : arg1.IsWhole) (arg2 : Memref sig .tc .vmem S256x512 .bf16) (harg2 : arg2.IsWhole) (arg3 : Memref sig .tc .vmem S200x10000 .f32) (harg3 : arg3.IsWhole) (arg4 : Memref sig .tc .vmem S200x1 .f32) (harg4 : arg4.IsWhole) (arg5 : Memref sig .tc .vmem S200x256 .f32) (harg5 : arg5.IsWhole) (arg6 : Memref sig .tc .vmem S10000x256 .f32) (harg6 : arg6.IsWhole)
    (hc0 : k0_cond1 i = 1#1) (hc1 : k0_cond2 i = 1#1) (x0 : Vec F S2000x512 .bf16) (x1 : Vec F S256x512 .bf16) (x2 : Vec F S200x10000 .f32) (x3 : Vec F S200x1 .f32) (xs : Vec F S10000x256 .f32) (n : ℕ) (hoff : k0_off1 i = ![2000 * n, 0])
    (j : S10000x256.Idx) (y : S2000x256.Idx) (h0 : (j 0).val = 2000 * n + (y 0).val) (h1 : (j 1).val = (y 1).val) :
    arg6.view.read (Elt F) (arg6.view.writes (Elt F) (harg6.unread xs) (runBoth c i arg1 harg1 arg2 harg2 arg3 harg3 arg4 harg4 arg5 harg5 arg6 harg6 hc0 hc1 x0 x1 x2 x3 xs).2.1) j
      = k0_pay1 x0 x1 y := by
  unfold runBoth
  dsimp only
  unfold runBoth.sl.HS_1
  simp only [View.readAt_eq_ld, harg1.read_unread, harg2.read_unread, View.ld_unit_zero (S := S2000x512) hz,
    View.ld_unit_zero (S := S256x512) hz]
  exact slice_inside arg6 _ _ _ _ n hoff j y h0 h1

theorem scratch_of_both_out (c : Dev nD) (i : grid0.Coords) (arg1 : Memref sig .tc .vmem S2000x512 .bf16) (harg1 : arg1.IsWhole) (arg2 : Memref sig .tc .vmem S256x512 .bf16) (harg2 : arg2.IsWhole) (arg3 : Memref sig .tc .vmem S200x10000 .f32) (harg3 : arg3.IsWhole) (arg4 : Memref sig .tc .vmem S200x1 .f32) (harg4 : arg4.IsWhole) (arg5 : Memref sig .tc .vmem S200x256 .f32) (harg5 : arg5.IsWhole) (arg6 : Memref sig .tc .vmem S10000x256 .f32) (harg6 : arg6.IsWhole)
    (hc0 : k0_cond1 i = 1#1) (hc1 : k0_cond2 i = 1#1) (x0 : Vec F S2000x512 .bf16) (x1 : Vec F S256x512 .bf16) (x2 : Vec F S200x10000 .f32) (x3 : Vec F S200x1 .f32) (xs : Vec F S10000x256 .f32) (n : ℕ) (hoff : k0_off1 i = ![2000 * n, 0])
    (j : S10000x256.Idx) (h : (j 0).val < 2000 * n ∨ 2000 * n + 2000 ≤ (j 0).val) :
    arg6.view.read (Elt F) (arg6.view.writes (Elt F) (harg6.unread xs) (runBoth c i arg1 harg1 arg2 harg2 arg3 harg3 arg4 harg4 arg5 harg5 arg6 harg6 hc0 hc1 x0 x1 x2 x3 xs).2.1) j
      = xs j := by
  unfold runBoth
  dsimp only
  unfold runBoth.sl.HS_1
  rw [slice_outside arg6 _ _ _ _ n hoff j h, harg6.read_unread]

/-! ## Each building point extends what is built by its slice -/

variable (m : (ℓ : Loc nD τ sig) → Buf (Elt F) ℓ)

/-- A row below the slices built so far and the new one lies either in the new slice — where the scratch now holds
    `sFull`, the new slice being the point's own — or in an earlier one, untouched. -/
theorem built_of_build (c : Dev nD) (t : Fin cfg0.N) (ht : t.val < 5)
    (hc0 : k0_cond1 (grid0.coords t) = 1#1) (hc1 : ¬ k0_cond2 (grid0.coords t) = 1#1)
    (x2 : Vec F S200x10000 .f32) (x3 : Vec F S200x1 .f32) (x4 : Vec F S200x256 .f32) (S : Vec F S10000x256 .f32) (h : Built m c t.val S) :
    Built m c (t.val + 1) (scM.view.read (Elt F) (scM.view.writes (Elt F) (hsc.unread S)
      (runBuild c (grid0.coords t) (ms0 t) (hs0 t) (ms1 t) (hs1 t) (ms2 t) (hs2 t) (ms3 t) (hs3 t) (ms4 t) (hs4 t) scM hsc hc0 hc1 (iblk m c 0 t) (iblk m c 1 t) x2 x3 S x4).1)) := by
  intro j hj
  have hj' : (j 0).val < 2000 * (t.val + 1) := by
    have e : min (t.val + 1) 5 = t.val + 1 := by omega
    rw [e] at hj; exact hj
  by_cases hin : 2000 * t.val ≤ (j 0).val
  · rw [scratch_of_build_in c (grid0.coords t) (ms0 t) (hs0 t) (ms1 t) (hs1 t) (ms2 t) (hs2 t) (ms3 t) (hs3 t) (ms4 t) (hs4 t) scM hsc hc0 hc1 (iblk m c 0 t) (iblk m c 1 t) x2 x3 S x4 t.val (slice_off t ht) j (inSlice j)
      (by show (j 0).val = 2000 * t.val + (j 0).val % 2000; omega) rfl]
    unfold sFull
    have e : sliceOf j = t := Fin.ext (by show (j 0).val / 2000 = t.val; omega)
    rw [e]
  · rw [scratch_of_build_out c (grid0.coords t) (ms0 t) (hs0 t) (ms1 t) (hs1 t) (ms2 t) (hs2 t) (ms3 t) (hs3 t) (ms4 t) (hs4 t) scM hsc hc0 hc1 (iblk m c 0 t) (iblk m c 1 t) x2 x3 S x4 t.val (slice_off t ht) j (Or.inl (by omega))]
    exact h j (by have e : min t.val 5 = t.val := by omega
                  rw [e]; omega)

theorem built_of_both (c : Dev nD) (t : Fin cfg0.N) (ht : t.val < 5)
    (hc0 : k0_cond1 (grid0.coords t) = 1#1) (hc1 : k0_cond2 (grid0.coords t) = 1#1)
    (x2 : Vec F S200x10000 .f32) (x3 : Vec F S200x1 .f32) (S : Vec F S10000x256 .f32) (h : Built m c t.val S) :
    Built m c (t.val + 1) (scM.view.read (Elt F) (scM.view.writes (Elt F) (hsc.unread S)
      (runBoth c (grid0.coords t) (ms0 t) (hs0 t) (ms1 t) (hs1 t) (ms2 t) (hs2 t) (ms3 t) (hs3 t) (ms4 t) (hs4 t) scM hsc hc0 hc1 (iblk m c 0 t) (iblk m c 1 t) x2 x3 S).2.1)) := by
  intro j hj
  have hj' : (j 0).val < 2000 * (t.val + 1) := by
    have e : min (t.val + 1) 5 = t.val + 1 := by omega
    rw [e] at hj; exact hj
  by_cases hin : 2000 * t.val ≤ (j 0).val
  · rw [scratch_of_both_in c (grid0.coords t) (ms0 t) (hs0 t) (ms1 t) (hs1 t) (ms2 t) (hs2 t) (ms3 t) (hs3 t) (ms4 t) (hs4 t) scM hsc hc0 hc1 (iblk m c 0 t) (iblk m c 1 t) x2 x3 S t.val (slice_off t ht) j (inSlice j)
      (by show (j 0).val = 2000 * t.val + (j 0).val % 2000; omega) rfl]
    unfold sFull
    have e : sliceOf j = t := Fin.ext (by show (j 0).val / 2000 = t.val; omega)
    rw [e]
  · rw [scratch_of_both_out c (grid0.coords t) (ms0 t) (hs0 t) (ms1 t) (hs1 t) (ms2 t) (hs2 t) (ms3 t) (hs3 t) (ms4 t) (hs4 t) scM hsc hc0 hc1 (iblk m c 0 t) (iblk m c 1 t) x2 x3 S t.val (slice_off t ht) j (Or.inl (by omega))]
    exact h j (by have e : min t.val 5 = t.val := by omega
                  rw [e]; omega)

end Cert.KernelIdeal.Body

end
-- ==== Proof.BodyIdeal.Frame.lean ====
/-
  The kernel's frame. At every grid point the body, called on the windows' current buffers, keeps the region's
  invariant: the scratch holds contents that agree with the full transposed support on the slices built so far.
  Points 0..3 extend what is built by one slice and leave the output's buffer (idle there) alone; point 4
  builds the last slice and leaves the output's buffer at (A-block · sT) + bias-block; points 5..53 find the
  scratch full and leave the output's buffer likewise. With the library's launch theorem this gives the run of
  @main: every array of the pipeline ends at what the proof data say, every other buffer as the host
  operations after the region leave it; in particular the four arguments end unchanged.
-/
import proofs.«131987_g21835613733112_rerun558fix_23_35_alg».proof.Proof.BodyIdeal.Steps

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 1600000 in
/-- The body at any point keeps the invariant and leaves each window's buffer at what the proof data say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  unfold PhiS
  rw [show (dats m 0 c).leavesExact 0 t = owns (c : Thread nD τ) (ms0 t) fullShare ((dats m 0 c).after 0 t) from by
      unfold Dat.leavesExact; rw [live0 t], after0]
  rw [show (dats m 0 c).leavesExact 1 t = owns (c : Thread nD τ) (ms1 t) fullShare ((dats m 0 c).after 1 t) from by
      unfold Dat.leavesExact; rw [live1 t], after1]
  rw [show (dats m 0 c).leavesExact 2 t = owns (c : Thread nD τ) (ms2 t) fullShare ((dats m 0 c).after 2 t) from by
      unfold Dat.leavesExact; rw [live2 t], after2]
  rw [show (dats m 0 c).leavesExact 3 t = owns (c : Thread nD τ) (ms3 t) fullShare ((dats m 0 c).after 3 t) from by
      unfold Dat.leavesExact; rw [live3 t], after3]
  have hN : t.val < 54 := lt_of_lt_of_eq t.isLt N54
  by_cases h0 : t.val < 5
  · by_cases h1 : 4 ≤ t.val
    · -- point 4: the last slice, then the first block of the result
      rw [show (dats m 0 c).leavesExact 4 t = owns (c : Thread nD τ) (ms4 t) fullShare ((dats m 0 c).after 4 t) from by
        unfold Dat.leavesExact; rw [live4 t h1], after4]
      iintro ⟨⟨⟨%S, %hS, HS⟩, Hg⟩, Ho, ⟨%d0, H0⟩, ⟨%d1, H1⟩, ⟨%d2, H2⟩, ⟨%d3, H3⟩, ⟨%d4, H4⟩⟩
      iapply ((runBoth c (grid0.coords t) (ms0 t) (hs0 t) (ms1 t) (hs1 t) (ms2 t) (hs2 t) (ms3 t) (hs3 t) (ms4 t) (hs4 t) scM hsc ((build_iff t).mpr h0) ((aggr_iff t).mpr h1) (iblk m c 0 t) (iblk m c 1 t) (iblk m c 2 t) (iblk m c 3 t) S).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%f4, H4⟩, HS⟩
      have hB := built_of_both m c t h0 ((build_iff t).mpr h0) ((aggr_iff t).mpr h1) (iblk m c 2 t) (iblk m c 3 t) S hS
      isplitl [HS Hg]
      · isplitl [HS]
        · iexists _
          isplitr; · ipureintro; exact hB
          unfold owns; iexists _; isplitr
          swap; · iexact HS
          ipureintro; rfl
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro
      rw [out_of_both, built_full m c (t.val + 1) (by omega) _ hB]
      rfl
    · -- points 0..3: one more slice; the output's buffer is idle
      rw [Dat.leavesExact_idle (dats m 0 c) 4 t (idle4 t (by omega)) (noFlush4 t (by omega))]
      iintro ⟨⟨⟨%S, %hS, HS⟩, Hg⟩, Ho, ⟨%d0, H0⟩, ⟨%d1, H1⟩, ⟨%d2, H2⟩, ⟨%d3, H3⟩, ⟨%d4, H4⟩⟩
      iapply ((runBuild c (grid0.coords t) (ms0 t) (hs0 t) (ms1 t) (hs1 t) (ms2 t) (hs2 t) (ms3 t) (hs3 t) (ms4 t) (hs4 t) scM hsc ((build_iff t).mpr h0) (fun h => h1 ((aggr_iff t).mp h)) (iblk m c 0 t) (iblk m c 1 t) (iblk m c 2 t) (iblk m c 3 t) S ((dats m 0 c).before 4 t d4)).2 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]
        · iexists _
          isplitr; · ipureintro; exact built_of_build m c t h0 ((build_iff t).mpr h0) (fun h => h1 ((aggr_iff t).mp h)) (iblk m c 2 t) (iblk m c 3 t) ((dats m 0 c).before 4 t d4) S hS
          unfold owns; iexists _; isplitr
          swap; · iexact HS
          ipureintro; rfl
        iexact Hg
      isplitl [Ho]; · iexact Ho
      isplitl [H0]; · iexact H0
      isplitl [H1]; · iexact H1
      isplitl [H2]; · iexact H2
      isplitl [H3]; · iexact H3
      iexists d4; iexact H4
  · -- points 5..53: the scratch is full; one block of the result
    have h1 : 4 ≤ t.val := by omega
    rw [show (dats m 0 c).leavesExact 4 t = owns (c : Thread nD τ) (ms4 t) fullShare ((dats m 0 c).after 4 t) from by
      unfold Dat.leavesExact; rw [live4 t h1], after4]
    iintro ⟨⟨⟨%S, %hS, HS⟩, Hg⟩, Ho, ⟨%d0, H0⟩, ⟨%d1, H1⟩, ⟨%d2, H2⟩, ⟨%d3, H3⟩, ⟨%d4, H4⟩⟩
    iapply ((runAggr c (grid0.coords t) (ms0 t) (hs0 t) (ms1 t) (hs1 t) (ms2 t) (hs2 t) (ms3 t) (hs3 t) (ms4 t) (hs4 t) scM hsc (fun h => h0 ((build_iff t).mp h)) ((aggr_iff t).mpr h1) (iblk m c 0 t) (iblk m c 1 t) (iblk m c 2 t) (iblk m c 3 t) S).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%f4, H4⟩, HS⟩
    isplitl [HS Hg]
    · isplitl [HS]
      · iexists S
        isplitr; · ipureintro; exact built_mono m c t.val (by omega) S hS
        iexact HS
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro
    rw [out_of_aggr, built_full m c t.val (by omega) S hS]
    rfl

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is built yet. -/
theorem inv_in (c : Dev nD) : Pipeline.ΦA spec0 c ⊢ (dats m 0 c).Φ 0 := by
  rw [show (dats m 0 c).Φ 0 = PhiS m c 0 from rfl, launchInv_eq]
  unfold PhiS
  iintro ⟨⟨%S, HS⟩, Hg⟩
  isplitl [HS]
  · iexists S
    isplitr; · ipureintro; exact built_zero m c S
    iexact HS
  iexact Hg

/-- After the last point the invariant gives that back: what the scratch holds is forgotten. -/
theorem inv_out (c : Dev nD) : (dats m 0 c).Φ (Fin.last cfg0.N) ⊢ Pipeline.ΦA spec0 c := by
  rw [show (dats m 0 c).Φ (Fin.last cfg0.N) = PhiS m c (Fin.last cfg0.N).val from rfl, launchInv_eq]
  unfold PhiS
  iintro ⟨⟨%S, %hS, HS⟩, Hg⟩
  isplitl [HS]
  · iexists S; iexact HS
  iexact Hg

set_option backward.isDefEq.respectTransparency.types false in
/-- Every weakly fair execution of @main terminates, every array of the pipeline ending at what the proof data give
    and every other buffer at what the host operations after the region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := inv_in m) (hout := inv_out m)

/-- The frame: @main runs and the four arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.BodyBits.Cases.lean ====
/-
  The grid of the layer's one kernel call has 54 points. Points 0..4 each compute one 2000-row slice of the
  transposed support sT and store it into the kernel's scratch; points 4..53 each multiply one 200-row block
  of A with the whole scratch and add the bias block, storing one 200-row block of the (transposed) result.
  This module decides, over the grid, where each of the body's two conditionals is taken, where the output
  window is idle (it is stored from point 4 on only, and not written back before), and where the slice
  stored at a point lies in the scratch; and it names the staging memrefs the body is called with.
-/
import proofs.«131987_g21835613733112_rerun558fix_23_35_alg».proof.Proof.Gen.Kernel.Frame
import proofs.«131987_g21835613733112_rerun558fix_23_35_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals, in closed form over the grid -/

/-- The first conditional (build one slice of sT) is taken exactly at points 0..4. -/
theorem build_iff : ∀ t : Fin cfg0.N, k0_cond1 (grid0.coords t) = 1#1 ↔ t.val < 5 :=
  (by decide +kernel : ∀ t : Fin grid0.N, k0_cond1 (grid0.coords t) = 1#1 ↔ t.val < 5)

/-- The second conditional (one block of the result) is taken exactly from point 4 on. -/
theorem aggr_iff : ∀ t : Fin cfg0.N, k0_cond2 (grid0.coords t) = 1#1 ↔ 4 ≤ t.val :=
  (by decide +kernel : ∀ t : Fin grid0.N, k0_cond2 (grid0.coords t) = 1#1 ↔ 4 ≤ t.val)

/-- The slice stored at a building point `t` starts at row 2000·t, lane 0. -/
theorem slice_off : ∀ t : Fin cfg0.N, t.val < 5 → k0_off1 (grid0.coords t) = ![2000 * t.val, 0] :=
  (by decide +kernel : ∀ t : Fin grid0.N, t.val < 5 → k0_off1 (grid0.coords t) = ![2000 * t.val, 0])

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Before point 4 the output window is idle: nothing is stored into its buffer, -/
theorem idle4 : ∀ t : Fin cfg0.N, t.val < 4 → cfg0.idle 4 (grid0.coords t) = true := by decide +kernel
/-- and the buffer is not written back there. -/
theorem noFlush4 : ∀ t : Fin cfg0.N, t.val < 4 → (cfg0.win 4).flush t = false := by decide +kernel
/-- From point 4 on it is live. -/
theorem live4 : ∀ t : Fin cfg0.N, 4 ≤ t.val → cfg0.idle 4 (grid0.coords t) = false := by decide +kernel

end Cert.Kernel.Body

end
-- ==== Proof.BodyBits.RunBuild.lean ====
/-
  The body at a point that only builds (points 0..3): it loads its block of Wᵀ and x, and stores their
  product — one 2000-row slice of sT — into the scratch over whatever the scratch held; the inputs' buffers
  and the output's buffer are handed back as they were.
-/
import proofs.«131987_g21835613733112_rerun558fix_23_35_alg».proof.Proof.BodyBits.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces the building point stores into the scratch (last first), with the body's triple: from the inputs'
    buffers at their blocks, the output's at `x4` and the scratch at `xs`, the body runs to the same with
    the scratch at those pieces written over `xs`. -/
noncomputable def runBuild (c : Dev nD) (i : grid0.Coords) (arg1 : Memref sig .tc .vmem S2000x512 .bf16) (harg1 : arg1.IsWhole) (arg2 : Memref sig .tc .vmem S256x512 .bf16) (harg2 : arg2.IsWhole) (arg3 : Memref sig .tc .vmem S200x10000 .f32) (harg3 : arg3.IsWhole) (arg4 : Memref sig .tc .vmem S200x1 .f32) (harg4 : arg4.IsWhole) (arg5 : Memref sig .tc .vmem S200x256 .f32) (harg5 : arg5.IsWhole) (arg6 : Memref sig .tc .vmem S10000x256 .f32) (harg6 : arg6.IsWhole)
    (hc0 : k0_cond1 i = 1#1) (hc1 : ¬ k0_cond2 i = 1#1) (x0 : Vec F S2000x512 .bf16) (x1 : Vec F S256x512 .bf16) (x2 : Vec F S200x10000 .f32) (x3 : Vec F S200x1 .f32) (xs : Vec F S10000x256 .f32) (x4 : Vec F S200x256 .f32) :
    { LS : List (View.Piece (Elt F) S10000x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (arg6.view.loc (c : Thread nD τ) ↦[arg6.view.set]{fullShare} arg6.view.writes (Elt F) (harg6.unread xs) LS)) -∗ K ⟨⟩))
          ⊢ wp frame (wpE (defs₀ (F := F)) Variants.none c none) E (cc0__gcn_kernel i arg1 harg1 arg2 harg2 arg3 harg3 arg4 harg4 arg5 harg5 arg6 harg6) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg1.eq_unread hf0; obtain rfl := harg2.eq_unread hf1; obtain rfl := harg3.eq_unread hf2
    obtain rfl := harg4.eq_unread hf3; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists f4; isplitr; · ipureintro; exact hf4
      iexact H4
    iexact HS

end Cert.Kernel.Body

end
-- ==== Proof.BodyBits.RunBoth.lean ====
/-
  The body at point 4, which does both: it stores the last 2000-row slice of sT into the scratch, then loads
  the whole scratch — its own slice included — with its block of A and its bias block, and stores
  (A-block · scratch) + bias into the output's buffer.
-/
import proofs.«131987_g21835613733112_rerun558fix_23_35_alg».proof.Proof.BodyBits.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces point 4 stores into the output's buffer and into the scratch, with the body's triple: from the
    inputs' buffers at their blocks, the output's at anything and the scratch at `xs`, the body runs to the
    inputs as they were, the output's buffer at its pieces written and the scratch at its pieces written over `xs`. -/
noncomputable def runBoth (c : Dev nD) (i : grid0.Coords) (arg1 : Memref sig .tc .vmem S2000x512 .bf16) (harg1 : arg1.IsWhole) (arg2 : Memref sig .tc .vmem S256x512 .bf16) (harg2 : arg2.IsWhole) (arg3 : Memref sig .tc .vmem S200x10000 .f32) (harg3 : arg3.IsWhole) (arg4 : Memref sig .tc .vmem S200x1 .f32) (harg4 : arg4.IsWhole) (arg5 : Memref sig .tc .vmem S200x256 .f32) (harg5 : arg5.IsWhole) (arg6 : Memref sig .tc .vmem S10000x256 .f32) (harg6 : arg6.IsWhole)
    (hc0 : k0_cond1 i = 1#1) (hc1 : k0_cond2 i = 1#1) (x0 : Vec F S2000x512 .bf16) (x1 : Vec F S256x512 .bf16) (x2 : Vec F S200x10000 .f32) (x3 : Vec F S200x1 .f32) (xs : Vec F S10000x256 .f32) :
    Σ' (L4 : List (View.Piece (Elt F) S200x256 .f32)), { LS : List (View.Piece (Elt F) S10000x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (arg6.view.loc (c : Thread nD τ) ↦[arg6.view.set]{fullShare} arg6.view.writes (Elt F) (harg6.unread xs) LS)) -∗ K ⟨⟩))
          ⊢ wp frame (wpE (defs₀ (F := F)) Variants.none c none) E (cc0__gcn_kernel i arg1 harg1 arg2 harg2 arg3 harg3 arg4 harg4 arg5 harg5 arg6 harg6) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%d4, %f4, %hf4, H4⟩, ⟨%fs, %hfs, HS⟩, Hk⟩
    obtain rfl := harg1.eq_unread hf0; obtain rfl := harg2.eq_unread hf1; obtain rfl := harg3.eq_unread hf2
    obtain rfl := harg4.eq_unread hf3; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    iexact HS

end Cert.Kernel.Body

end
-- ==== Proof.BodyBits.RunAggr.lean ====
/-
  The body at a point that only aggregates (points 5..53): it loads its block of A, the whole scratch and its
  bias block, and stores (A-block · scratch) + bias into the output's buffer; the scratch and the inputs'
  buffers are handed back as they were.
-/
import proofs.«131987_g21835613733112_rerun558fix_23_35_alg».proof.Proof.BodyBits.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces the aggregating point stores into the output's buffer, with the body's triple: from the inputs'
    buffers at their blocks, the output's at anything and the scratch at `xs`, the body runs to the same with
    the output's buffer at those pieces written. -/
noncomputable def runAggr (c : Dev nD) (i : grid0.Coords) (arg1 : Memref sig .tc .vmem S2000x512 .bf16) (harg1 : arg1.IsWhole) (arg2 : Memref sig .tc .vmem S256x512 .bf16) (harg2 : arg2.IsWhole) (arg3 : Memref sig .tc .vmem S200x10000 .f32) (harg3 : arg3.IsWhole) (arg4 : Memref sig .tc .vmem S200x1 .f32) (harg4 : arg4.IsWhole) (arg5 : Memref sig .tc .vmem S200x256 .f32) (harg5 : arg5.IsWhole) (arg6 : Memref sig .tc .vmem S10000x256 .f32) (harg6 : arg6.IsWhole)
    (hc0 : ¬ k0_cond1 i = 1#1) (hc1 : k0_cond2 i = 1#1) (x0 : Vec F S2000x512 .bf16) (x1 : Vec F S256x512 .bf16) (x2 : Vec F S200x10000 .f32) (x3 : Vec F S200x1 .f32) (xs : Vec F S10000x256 .f32) :
    { L4 : List (View.Piece (Elt F) S200x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ owns (c : Thread nD τ) arg6 fullShare xs) -∗ K ⟨⟩))
          ⊢ wp frame (wpE (defs₀ (F := F)) Variants.none c none) E (cc0__gcn_kernel i arg1 harg1 arg2 harg2 arg3 harg3 arg4 harg4 arg5 harg5 arg6 harg6) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%d4, %f4, %hf4, H4⟩, ⟨%fs, %hfs, HS⟩, Hk⟩
    obtain rfl := harg1.eq_unread hf0; obtain rfl := harg2.eq_unread hf1; obtain rfl := harg3.eq_unread hf2
    obtain rfl := harg4.eq_unread hf3; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    iexists _; isplitr; · ipureintro; exact harg6.read_unread _
    iexact HS

end Cert.Kernel.Body

end
-- ==== Proof.BodyBits.Data.lean ====
/-
  What the kernel's scratch and output hold, point by point, in closed form.

  The scratch sT has 10000 rows; row k lies in slice ⌊k / 2000⌋ (built at the point of that number) at row
  k mod 2000 of that slice. `sFull` is the whole scratch once all five slices are built: row k, lane q is the
  building point's product of its Wᵀ-block and x at (k mod 2000, q). Before point n the scratch agrees with
  `sFull` on its first min n 5 slices (`Built`) and holds anything below them. From point 4 on the output's
  buffer is left at (A-block · sFull) + bias-block (`outBlk`).
-/
import proofs.«131987_g21835613733112_rerun558fix_23_35_alg».proof.Proof.BodyBits.Cases
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the body is called with at a point -/

abbrev ms0 (t : Fin cfg0.N) : Memref sig .tc .vmem S2000x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S200x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S200x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S200x256 .f32 := win0_4.stage (cfg0.slots t 4)
abbrev hs4 (t : Fin cfg0.N) : (ms4 t).IsWhole := hstage0_4 ((cfg0.slots t 4).cast nbuf0_4)
/-- The scratch: a whole buffer of the kernel's own. -/
abbrev scM : Memref sig .tc .vmem S10000x256 .f32 := Memref.whole cc0_scratch0
abbrev hsc : (scM).IsWhole := Memref.isWhole_whole _

theorem N54 : cfg0.N = 54 := N_0

/-- What the launch hands the region beside the windows: the scratch at some contents and the generator register. -/
theorem launchInv_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The scratch in closed form -/

/-- The point that builds the slice row `j 0` lies in. -/
def sliceOf (j : S10000x256.Idx) : Fin cfg0.N :=
  ⟨(j 0).val / 2000, by have h : (j 0).val < 10000 := (j 0).isLt; have := N54; omega⟩

/-- The row's place inside its slice. -/
def inSlice (j : S10000x256.Idx) : S2000x256.Idx :=
  ValueIdx.ix2 (⟨(j 0).val % 2000, Nat.mod_lt _ (by decide)⟩ : Fin 2000) (j 1)

/-- The whole transposed support as the five building points leave it. -/
def sFull (c : Dev nD) : Vec F S10000x256 .f32 := fun j =>
  k0_pay1 (iblk m c 0 (sliceOf j)) (iblk m c 1 (sliceOf j)) (inSlice j)

/-- Contents `S` of the scratch that agree with `sFull` on the slices built before point `n`. -/
def Built (c : Dev nD) (n : ℕ) (S : Vec F S10000x256 .f32) : Prop :=
  ∀ j : S10000x256.Idx, (j 0).val < 2000 * min n 5 → S j = sFull m c j

/-- Nothing is asked before the first point. -/
theorem built_zero (c : Dev nD) (S : Vec F S10000x256 .f32) : Built m c 0 S := fun j h => by
  rw [Nat.zero_min, Nat.mul_zero] at h; exact absurd h (Nat.not_lt_zero _)

/-- Once five slices are built the scratch IS `sFull`. -/
theorem built_full (c : Dev nD) (n : ℕ) (hn : 5 ≤ n) (S : Vec F S10000x256 .f32) (h : Built m c n S) : S = sFull m c :=
  funext fun j => h j (by have h0 : (j 0).val < 10000 := (j 0).isLt; have : min n 5 = 5 := by omega
                          rw [this]; omega)

/-- From the fifth point on nothing more is built. -/
theorem built_mono (c : Dev nD) (n : ℕ) (hn : 5 ≤ n) (S : Vec F S10000x256 .f32) (h : Built m c n S) : Built m c (n + 1) S :=
  fun j hj => h j (by have : min n 5 = 5 := by omega
                      have : min (n + 1) 5 = 5 := by omega
                      omega)

/-- What an aggregating point leaves in the output's buffer. -/
def outBlk (c : Dev nD) (t : Fin cfg0.N) : Vec F S200x256 .f32 :=
  k0_pay2 (iblk m c 2 t) (sFull m c) (iblk m c 3 t)

/-! ## The region's invariant and the proof data -/

/-- Before position `n`: the scratch at some contents built so far, and the generator register at some state. -/
def PhiS (c : Dev nD) (n : ℕ) : sProp 𝕄 :=
  iprop(iprop(∃ S : Vec F S10000x256 .f32, ⌜Built m c n S⌝ ∗ owns (c : Thread nD τ) scM fullShare S) ∗ (∃ r, prngReg c r))

/-- The proof data of the one pipeline on core `c`: the arrays as the region finds them; after the body at a
    point each input's buffer at its block and the output's at `outBlk`; the invariant `PhiS`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk m c t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outBlk m c t := by dsimp only [dats]

/-- Each input's current buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

end Cert.Kernel.Body

end
-- ==== Proof.BodyBits.Steps.lean ====
/-
  What the body's stores leave, read back.

  A building point stores ONE piece into the scratch: the unit-stride rectangle of 2000 rows by 256 lanes at row
  offset 2000·n, holding the product of its Wᵀ-block and x. Read back at a row inside that rectangle the scratch
  holds the product at the row's place in the slice; at any other row it holds what it held before. An
  aggregating point stores ONE piece into the output's buffer, the whole block, so the buffer reads back as that
  payload: (A-block · scratch) + bias-block, with the scratch as the point found it (or, at point 4, as its own
  store left it). From these: each building point extends what is built by its slice.
-/
import proofs.«131987_g21835613733112_rerun558fix_23_35_alg».proof.Proof.BodyBits.RunBuild
import proofs.«131987_g21835613733112_rerun558fix_23_35_alg».proof.Proof.BodyBits.RunBoth
import proofs.«131987_g21835613733112_rerun558fix_23_35_alg».proof.Proof.BodyBits.RunAggr
import proofs.«131987_g21835613733112_rerun558fix_23_35_alg».proof.Proof.BodyBits.Data
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-! ## One slice stored over prior contents -/

/-- Inside the stored rectangle the scratch reads the payload at the row's place in the slice. -/
theorem slice_inside (arg6 : Memref sig .tc .vmem S10000x256 .f32) (f : arg6.view.ty.Contents (Elt F))
    (off : Fin 2 → Nat) (inb : ∀ a, off a + (![2000, 256] : Fin 2 → Nat) a ≤ S10000x256.size a)
    (w : (Rect.unit (s := S10000x256) off ![2000, 256] inb).shape.Idx → Elt F .f32) (n : ℕ) (hoff : off = ![2000 * n, 0])
    (j : S10000x256.Idx) (y : (Rect.unit (s := S10000x256) off ![2000, 256] inb).shape.Idx)
    (h0 : (j 0).val = 2000 * n + (y 0).val) (h1 : (j 1).val = (y 1).val) :
    arg6.view.read (Elt F) (arg6.view.writes (Elt F) f [⟨Rect.unit (s := S10000x256) off ![2000, 256] inb, w⟩]) j = w y := by
  subst hoff
  have e : j = (Rect.unit (s := S10000x256) ![2000 * n, 0] ![2000, 256] inb).emb y := by
    funext a
    apply Fin.ext
    rw [Rect.emb_apply, Rect.off_unit, Rect.stride_unit]
    match a with
    | ⟨0, _⟩ => show (j 0).val = 2000 * n + 1 * (y 0).val; omega
    | ⟨1, _⟩ => show (j 1).val = 0 + 1 * (y 1).val; omega
  rw [e]
  exact View.read_writes_cons_emb _ _ _ _ [] y

/-- Outside it the scratch reads what it held before. -/
theorem slice_outside (arg6 : Memref sig .tc .vmem S10000x256 .f32) (f : arg6.view.ty.Contents (Elt F))
    (off : Fin 2 → Nat) (inb : ∀ a, off a + (![2000, 256] : Fin 2 → Nat) a ≤ S10000x256.size a)
    (w : (Rect.unit (s := S10000x256) off ![2000, 256] inb).shape.Idx → Elt F .f32) (n : ℕ) (hoff : off = ![2000 * n, 0])
    (j : S10000x256.Idx) (h : (j 0).val < 2000 * n ∨ 2000 * n + 2000 ≤ (j 0).val) :
    arg6.view.read (Elt F) (arg6.view.writes (Elt F) f [⟨Rect.unit (s := S10000x256) off ![2000, 256] inb, w⟩]) j
      = arg6.view.read (Elt F) f j := by
  subst hoff
  refine View.read_writes_apply_of_forall_not_mem _ _ j _ (fun p hp => ?_)
  rw [List.mem_singleton] at hp
  subst hp
  rw [Rect.mem_set_unit]
  intro hall
  have h0 : 2000 * n ≤ (j 0).val ∧ (j 0).val < 2000 * n + 2000 := hall 0
  omega

/-- One store of the whole block: the buffer reads back as the payload, whatever it held. -/
theorem whole_block (arg5 : Memref sig .tc .vmem S200x256 .f32) (f : arg5.view.ty.Contents (Elt F))
    (off : Fin 2 → Nat) (inb : ∀ a, off a + (![200, 256] : Fin 2 → Nat) a ≤ S200x256.size a) (hoff : off = ![0, 0])
    (w : (Rect.unit (s := S200x256) off ![200, 256] inb).shape.Idx → Elt F .f32) :
    arg5.view.read (Elt F) (arg5.view.writes (Elt F) f [⟨Rect.unit (s := S200x256) off ![200, 256] inb, w⟩]) = w := by
  subst hoff
  funext y
  have e : y = (Rect.unit (s := S200x256) ![0, 0] ![200, 256] inb).emb y := by
    funext a
    apply Fin.ext
    rw [Rect.emb_apply, Rect.off_unit, Rect.stride_unit]
    match a with
    | ⟨0, _⟩ => show (y 0).val = 0 + 1 * (y 0).val; omega
    | ⟨1, _⟩ => show (y 1).val = 0 + 1 * (y 1).val; omega
  have h := View.read_writes_cons_emb arg5.view f (Rect.unit (s := S200x256) ![0, 0] ![200, 256] inb) w [] y
  rw [← e] at h
  exact h

/-! ## The output's buffer after an aggregating point -/

/-- Points 5..53: the buffer reads back as (A-block · scratch) + bias-block, the scratch as the point found it. -/
theorem out_of_aggr (c : Dev nD) (i : grid0.Coords) (arg1 : Memref sig .tc .vmem S2000x512 .bf16) (harg1 : arg1.IsWhole) (arg2 : Memref sig .tc .vmem S256x512 .bf16) (harg2 : arg2.IsWhole) (arg3 : Memref sig .tc .vmem S200x10000 .f32) (harg3 : arg3.IsWhole) (arg4 : Memref sig .tc .vmem S200x1 .f32) (harg4 : arg4.IsWhole) (arg5 : Memref sig .tc .vmem S200x256 .f32) (harg5 : arg5.IsWhole) (arg6 : Memref sig .tc .vmem S10000x256 .f32) (harg6 : arg6.IsWhole)
    (hc0 : ¬ k0_cond1 i = 1#1) (hc1 : k0_cond2 i = 1#1) (x0 : Vec F S2000x512 .bf16) (x1 : Vec F S256x512 .bf16) (x2 : Vec F S200x10000 .f32) (x3 : Vec F S200x1 .f32) (xs : Vec F S10000x256 .f32) (f : arg5.view.ty.Contents (Elt F)) :
    arg5.view.read (Elt F) (arg5.view.writes (Elt F) f (runAggr c i arg1 harg1 arg2 harg2 arg3 harg3 arg4 harg4 arg5 harg5 arg6 harg6 hc0 hc1 x0 x1 x2 x3 xs).1)
      = k0_pay2 x2 xs x3 := by
  unfold runAggr
  dsimp only
  refine (whole_block arg5 f _ _ rfl _).trans ?_
  simp only [View.readAt_eq_ld, harg3.read_unread, harg4.read_unread, harg6.read_unread, View.ld_unit_zero (S := S200x10000) hz,
    View.ld_unit_zero (S := S10000x256) hz, View.ld_unit_zero (S := S200x1) hz]

/-- Point 4: the same with the scratch as the point's own store left it. -/
theorem out_of_both (c : Dev nD) (i : grid0.Coords) (arg1 : Memref sig .tc .vmem S2000x512 .bf16) (harg1 : arg1.IsWhole) (arg2 : Memref sig .tc .vmem S256x512 .bf16) (harg2 : arg2.IsWhole) (arg3 : Memref sig .tc .vmem S200x10000 .f32) (harg3 : arg3.IsWhole) (arg4 : Memref sig .tc .vmem S200x1 .f32) (harg4 : arg4.IsWhole) (arg5 : Memref sig .tc .vmem S200x256 .f32) (harg5 : arg5.IsWhole) (arg6 : Memref sig .tc .vmem S10000x256 .f32) (harg6 : arg6.IsWhole)
    (hc0 : k0_cond1 i = 1#1) (hc1 : k0_cond2 i = 1#1) (x0 : Vec F S2000x512 .bf16) (x1 : Vec F S256x512 .bf16) (x2 : Vec F S200x10000 .f32) (x3 : Vec F S200x1 .f32) (xs : Vec F S10000x256 .f32) (f : arg5.view.ty.Contents (Elt F)) :
    arg5.view.read (Elt F) (arg5.view.writes (Elt F) f (runBoth c i arg1 harg1 arg2 harg2 arg3 harg3 arg4 harg4 arg5 harg5 arg6 harg6 hc0 hc1 x0 x1 x2 x3 xs).1)
      = k0_pay2 x2 (arg6.view.read (Elt F) (arg6.view.writes (Elt F) (harg6.unread xs) (runBoth c i arg1 harg1 arg2 harg2 arg3 harg3 arg4 harg4 arg5 harg5 arg6 harg6 hc0 hc1 x0 x1 x2 x3 xs).2.1)) x3 := by
  unfold runBoth
  dsimp only
  refine (whole_block arg5 f _ _ rfl _).trans ?_
  simp only [View.readAt_eq_ld, harg3.read_unread, harg4.read_unread, View.ld_unit_zero (S := S200x10000) hz,
    View.ld_unit_zero (S := S10000x256) hz, View.ld_unit_zero (S := S200x1) hz]

/-! ## The scratch after a building point -/

theorem scratch_of_build_in (c : Dev nD) (i : grid0.Coords) (arg1 : Memref sig .tc .vmem S2000x512 .bf16) (harg1 : arg1.IsWhole) (arg2 : Memref sig .tc .vmem S256x512 .bf16) (harg2 : arg2.IsWhole) (arg3 : Memref sig .tc .vmem S200x10000 .f32) (harg3 : arg3.IsWhole) (arg4 : Memref sig .tc .vmem S200x1 .f32) (harg4 : arg4.IsWhole) (arg5 : Memref sig .tc .vmem S200x256 .f32) (harg5 : arg5.IsWhole) (arg6 : Memref sig .tc .vmem S10000x256 .f32) (harg6 : arg6.IsWhole)
    (hc0 : k0_cond1 i = 1#1) (hc1 : ¬ k0_cond2 i = 1#1) (x0 : Vec F S2000x512 .bf16) (x1 : Vec F S256x512 .bf16) (x2 : Vec F S200x10000 .f32) (x3 : Vec F S200x1 .f32) (xs : Vec F S10000x256 .f32) (x4 : Vec F S200x256 .f32) (n : ℕ) (hoff : k0_off1 i = ![2000 * n, 0])
    (j : S10000x256.Idx) (y : S2000x256.Idx) (h0 : (j 0).val = 2000 * n + (y 0).val) (h1 : (j 1).val = (y 1).val) :
    arg6.view.read (Elt F) (arg6.view.writes (Elt F) (harg6.unread xs) (runBuild c i arg1 harg1 arg2 harg2 arg3 harg3 arg4 harg4 arg5 harg5 arg6 harg6 hc0 hc1 x0 x1 x2 x3 xs x4).1) j
      = k0_pay1 x0 x1 y := by
  unfold runBuild
  dsimp only
  simp only [View.readAt_eq_ld, harg1.read_unread, harg2.read_unread, View.ld_unit_zero (S := S2000x512) hz,
    View.ld_unit_zero (S := S256x512) hz]
  exact slice_inside arg6 _ _ _ _ n hoff j y h0 h1

theorem scratch_of_build_out (c : Dev nD) (i : grid0.Coords) (arg1 : Memref sig .tc .vmem S2000x512 .bf16) (harg1 : arg1.IsWhole) (arg2 : Memref sig .tc .vmem S256x512 .bf16) (harg2 : arg2.IsWhole) (arg3 : Memref sig .tc .vmem S200x10000 .f32) (harg3 : arg3.IsWhole) (arg4 : Memref sig .tc .vmem S200x1 .f32) (harg4 : arg4.IsWhole) (arg5 : Memref sig .tc .vmem S200x256 .f32) (harg5 : arg5.IsWhole) (arg6 : Memref sig .tc .vmem S10000x256 .f32) (harg6 : arg6.IsWhole)
    (hc0 : k0_cond1 i = 1#1) (hc1 : ¬ k0_cond2 i = 1#1) (x0 : Vec F S2000x512 .bf16) (x1 : Vec F S256x512 .bf16) (x2 : Vec F S200x10000 .f32) (x3 : Vec F S200x1 .f32) (xs : Vec F S10000x256 .f32) (x4 : Vec F S200x256 .f32) (n : ℕ) (hoff : k0_off1 i = ![2000 * n, 0])
    (j : S10000x256.Idx) (h : (j 0).val < 2000 * n ∨ 2000 * n + 2000 ≤ (j 0).val) :
    arg6.view.read (Elt F) (arg6.view.writes (Elt F) (harg6.unread xs) (runBuild c i arg1 harg1 arg2 harg2 arg3 harg3 arg4 harg4 arg5 harg5 arg6 harg6 hc0 hc1 x0 x1 x2 x3 xs x4).1) j
      = xs j := by
  unfold runBuild
  dsimp only
  rw [slice_outside arg6 _ _ _ _ n hoff j h, harg6.read_unread]

theorem scratch_of_both_in (c : Dev nD) (i : grid0.Coords) (arg1 : Memref sig .tc .vmem S2000x512 .bf16) (harg1 : arg1.IsWhole) (arg2 : Memref sig .tc .vmem S256x512 .bf16) (harg2 : arg2.IsWhole) (arg3 : Memref sig .tc .vmem S200x10000 .f32) (harg3 : arg3.IsWhole) (arg4 : Memref sig .tc .vmem S200x1 .f32) (harg4 : arg4.IsWhole) (arg5 : Memref sig .tc .vmem S200x256 .f32) (harg5 : arg5.IsWhole) (arg6 : Memref sig .tc .vmem S10000x256 .f32) (harg6 : arg6.IsWhole)
    (hc0 : k0_cond1 i = 1#1) (hc1 : k0_cond2 i = 1#1) (x0 : Vec F S2000x512 .bf16) (x1 : Vec F S256x512 .bf16) (x2 : Vec F S200x10000 .f32) (x3 : Vec F S200x1 .f32) (xs : Vec F S10000x256 .f32) (n : ℕ) (hoff : k0_off1 i = ![2000 * n, 0])
    (j : S10000x256.Idx) (y : S2000x256.Idx) (h0 : (j 0).val = 2000 * n + (y 0).val) (h1 : (j 1).val = (y 1).val) :
    arg6.view.read (Elt F) (arg6.view.writes (Elt F) (harg6.unread xs) (runBoth c i arg1 harg1 arg2 harg2 arg3 harg3 arg4 harg4 arg5 harg5 arg6 harg6 hc0 hc1 x0 x1 x2 x3 xs).2.1) j
      = k0_pay1 x0 x1 y := by
  unfold runBoth
  dsimp only
  unfold runBoth.sl.HS_1
  simp only [View.readAt_eq_ld, harg1.read_unread, harg2.read_unread, View.ld_unit_zero (S := S2000x512) hz,
    View.ld_unit_zero (S := S256x512) hz]
  exact slice_inside arg6 _ _ _ _ n hoff j y h0 h1

theorem scratch_of_both_out (c : Dev nD) (i : grid0.Coords) (arg1 : Memref sig .tc .vmem S2000x512 .bf16) (harg1 : arg1.IsWhole) (arg2 : Memref sig .tc .vmem S256x512 .bf16) (harg2 : arg2.IsWhole) (arg3 : Memref sig .tc .vmem S200x10000 .f32) (harg3 : arg3.IsWhole) (arg4 : Memref sig .tc .vmem S200x1 .f32) (harg4 : arg4.IsWhole) (arg5 : Memref sig .tc .vmem S200x256 .f32) (harg5 : arg5.IsWhole) (arg6 : Memref sig .tc .vmem S10000x256 .f32) (harg6 : arg6.IsWhole)
    (hc0 : k0_cond1 i = 1#1) (hc1 : k0_cond2 i = 1#1) (x0 : Vec F S2000x512 .bf16) (x1 : Vec F S256x512 .bf16) (x2 : Vec F S200x10000 .f32) (x3 : Vec F S200x1 .f32) (xs : Vec F S10000x256 .f32) (n : ℕ) (hoff : k0_off1 i = ![2000 * n, 0])
    (j : S10000x256.Idx) (h : (j 0).val < 2000 * n ∨ 2000 * n + 2000 ≤ (j 0).val) :
    arg6.view.read (Elt F) (arg6.view.writes (Elt F) (harg6.unread xs) (runBoth c i arg1 harg1 arg2 harg2 arg3 harg3 arg4 harg4 arg5 harg5 arg6 harg6 hc0 hc1 x0 x1 x2 x3 xs).2.1) j
      = xs j := by
  unfold runBoth
  dsimp only
  unfold runBoth.sl.HS_1
  rw [slice_outside arg6 _ _ _ _ n hoff j h, harg6.read_unread]

/-! ## Each building point extends what is built by its slice -/

variable (m : (ℓ : Loc nD τ sig) → Buf (Elt F) ℓ)

/-- A row below the slices built so far and the new one lies either in the new slice — where the scratch now holds
    `sFull`, the new slice being the point's own — or in an earlier one, untouched. -/
theorem built_of_build (c : Dev nD) (t : Fin cfg0.N) (ht : t.val < 5)
    (hc0 : k0_cond1 (grid0.coords t) = 1#1) (hc1 : ¬ k0_cond2 (grid0.coords t) = 1#1)
    (x2 : Vec F S200x10000 .f32) (x3 : Vec F S200x1 .f32) (x4 : Vec F S200x256 .f32) (S : Vec F S10000x256 .f32) (h : Built m c t.val S) :
    Built m c (t.val + 1) (scM.view.read (Elt F) (scM.view.writes (Elt F) (hsc.unread S)
      (runBuild c (grid0.coords t) (ms0 t) (hs0 t) (ms1 t) (hs1 t) (ms2 t) (hs2 t) (ms3 t) (hs3 t) (ms4 t) (hs4 t) scM hsc hc0 hc1 (iblk m c 0 t) (iblk m c 1 t) x2 x3 S x4).1)) := by
  intro j hj
  have hj' : (j 0).val < 2000 * (t.val + 1) := by
    have e : min (t.val + 1) 5 = t.val + 1 := by omega
    rw [e] at hj; exact hj
  by_cases hin : 2000 * t.val ≤ (j 0).val
  · rw [scratch_of_build_in c (grid0.coords t) (ms0 t) (hs0 t) (ms1 t) (hs1 t) (ms2 t) (hs2 t) (ms3 t) (hs3 t) (ms4 t) (hs4 t) scM hsc hc0 hc1 (iblk m c 0 t) (iblk m c 1 t) x2 x3 S x4 t.val (slice_off t ht) j (inSlice j)
      (by show (j 0).val = 2000 * t.val + (j 0).val % 2000; omega) rfl]
    unfold sFull
    have e : sliceOf j = t := Fin.ext (by show (j 0).val / 2000 = t.val; omega)
    rw [e]
  · rw [scratch_of_build_out c (grid0.coords t) (ms0 t) (hs0 t) (ms1 t) (hs1 t) (ms2 t) (hs2 t) (ms3 t) (hs3 t) (ms4 t) (hs4 t) scM hsc hc0 hc1 (iblk m c 0 t) (iblk m c 1 t) x2 x3 S x4 t.val (slice_off t ht) j (Or.inl (by omega))]
    exact h j (by have e : min t.val 5 = t.val := by omega
                  rw [e]; omega)

theorem built_of_both (c : Dev nD) (t : Fin cfg0.N) (ht : t.val < 5)
    (hc0 : k0_cond1 (grid0.coords t) = 1#1) (hc1 : k0_cond2 (grid0.coords t) = 1#1)
    (x2 : Vec F S200x10000 .f32) (x3 : Vec F S200x1 .f32) (S : Vec F S10000x256 .f32) (h : Built m c t.val S) :
    Built m c (t.val + 1) (scM.view.read (Elt F) (scM.view.writes (Elt F) (hsc.unread S)
      (runBoth c (grid0.coords t) (ms0 t) (hs0 t) (ms1 t) (hs1 t) (ms2 t) (hs2 t) (ms3 t) (hs3 t) (ms4 t) (hs4 t) scM hsc hc0 hc1 (iblk m c 0 t) (iblk m c 1 t) x2 x3 S).2.1)) := by
  intro j hj
  have hj' : (j 0).val < 2000 * (t.val + 1) := by
    have e : min (t.val + 1) 5 = t.val + 1 := by omega
    rw [e] at hj; exact hj
  by_cases hin : 2000 * t.val ≤ (j 0).val
  · rw [scratch_of_both_in c (grid0.coords t) (ms0 t) (hs0 t) (ms1 t) (hs1 t) (ms2 t) (hs2 t) (ms3 t) (hs3 t) (ms4 t) (hs4 t) scM hsc hc0 hc1 (iblk m c 0 t) (iblk m c 1 t) x2 x3 S t.val (slice_off t ht) j (inSlice j)
      (by show (j 0).val = 2000 * t.val + (j 0).val % 2000; omega) rfl]
    unfold sFull
    have e : sliceOf j = t := Fin.ext (by show (j 0).val / 2000 = t.val; omega)
    rw [e]
  · rw [scratch_of_both_out c (grid0.coords t) (ms0 t) (hs0 t) (ms1 t) (hs1 t) (ms2 t) (hs2 t) (ms3 t) (hs3 t) (ms4 t) (hs4 t) scM hsc hc0 hc1 (iblk m c 0 t) (iblk m c 1 t) x2 x3 S t.val (slice_off t ht) j (Or.inl (by omega))]
    exact h j (by have e : min t.val 5 = t.val := by omega
                  rw [e]; omega)

end Cert.Kernel.Body

end
-- ==== Proof.BodyBits.Frame.lean ====
/-
  The kernel's frame. At every grid point the body, called on the windows' current buffers, keeps the region's
  invariant: the scratch holds contents that agree with the full transposed support on the slices built so far.
  Points 0..3 extend what is built by one slice and leave the output's buffer (idle there) alone; point 4
  builds the last slice and leaves the output's buffer at (A-block · sT) + bias-block; points 5..53 find the
  scratch full and leave the output's buffer likewise. With the library's launch theorem this gives the run of
  @main: every array of the pipeline ends at what the proof data say, every other buffer as the host
  operations after the region leave it; in particular the four arguments end unchanged.
-/
import proofs.«131987_g21835613733112_rerun558fix_23_35_alg».proof.Proof.BodyBits.Steps

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 1600000 in
/-- The body at any point keeps the invariant and leaves each window's buffer at what the proof data say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  unfold PhiS
  rw [show (dats m 0 c).leavesExact 0 t = owns (c : Thread nD τ) (ms0 t) fullShare ((dats m 0 c).after 0 t) from by
      unfold Dat.leavesExact; rw [live0 t], after0]
  rw [show (dats m 0 c).leavesExact 1 t = owns (c : Thread nD τ) (ms1 t) fullShare ((dats m 0 c).after 1 t) from by
      unfold Dat.leavesExact; rw [live1 t], after1]
  rw [show (dats m 0 c).leavesExact 2 t = owns (c : Thread nD τ) (ms2 t) fullShare ((dats m 0 c).after 2 t) from by
      unfold Dat.leavesExact; rw [live2 t], after2]
  rw [show (dats m 0 c).leavesExact 3 t = owns (c : Thread nD τ) (ms3 t) fullShare ((dats m 0 c).after 3 t) from by
      unfold Dat.leavesExact; rw [live3 t], after3]
  have hN : t.val < 54 := lt_of_lt_of_eq t.isLt N54
  by_cases h0 : t.val < 5
  · by_cases h1 : 4 ≤ t.val
    · -- point 4: the last slice, then the first block of the result
      rw [show (dats m 0 c).leavesExact 4 t = owns (c : Thread nD τ) (ms4 t) fullShare ((dats m 0 c).after 4 t) from by
        unfold Dat.leavesExact; rw [live4 t h1], after4]
      iintro ⟨⟨⟨%S, %hS, HS⟩, Hg⟩, Ho, ⟨%d0, H0⟩, ⟨%d1, H1⟩, ⟨%d2, H2⟩, ⟨%d3, H3⟩, ⟨%d4, H4⟩⟩
      iapply ((runBoth c (grid0.coords t) (ms0 t) (hs0 t) (ms1 t) (hs1 t) (ms2 t) (hs2 t) (ms3 t) (hs3 t) (ms4 t) (hs4 t) scM hsc ((build_iff t).mpr h0) ((aggr_iff t).mpr h1) (iblk m c 0 t) (iblk m c 1 t) (iblk m c 2 t) (iblk m c 3 t) S).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%f4, H4⟩, HS⟩
      have hB := built_of_both m c t h0 ((build_iff t).mpr h0) ((aggr_iff t).mpr h1) (iblk m c 2 t) (iblk m c 3 t) S hS
      isplitl [HS Hg]
      · isplitl [HS]
        · iexists _
          isplitr; · ipureintro; exact hB
          unfold owns; iexists _; isplitr
          swap; · iexact HS
          ipureintro; rfl
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro
      rw [out_of_both, built_full m c (t.val + 1) (by omega) _ hB]
      rfl
    · -- points 0..3: one more slice; the output's buffer is idle
      rw [Dat.leavesExact_idle (dats m 0 c) 4 t (idle4 t (by omega)) (noFlush4 t (by omega))]
      iintro ⟨⟨⟨%S, %hS, HS⟩, Hg⟩, Ho, ⟨%d0, H0⟩, ⟨%d1, H1⟩, ⟨%d2, H2⟩, ⟨%d3, H3⟩, ⟨%d4, H4⟩⟩
      iapply ((runBuild c (grid0.coords t) (ms0 t) (hs0 t) (ms1 t) (hs1 t) (ms2 t) (hs2 t) (ms3 t) (hs3 t) (ms4 t) (hs4 t) scM hsc ((build_iff t).mpr h0) (fun h => h1 ((aggr_iff t).mp h)) (iblk m c 0 t) (iblk m c 1 t) (iblk m c 2 t) (iblk m c 3 t) S ((dats m 0 c).before 4 t d4)).2 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]
        · iexists _
          isplitr; · ipureintro; exact built_of_build m c t h0 ((build_iff t).mpr h0) (fun h => h1 ((aggr_iff t).mp h)) (iblk m c 2 t) (iblk m c 3 t) ((dats m 0 c).before 4 t d4) S hS
          unfold owns; iexists _; isplitr
          swap; · iexact HS
          ipureintro; rfl
        iexact Hg
      isplitl [Ho]; · iexact Ho
      isplitl [H0]; · iexact H0
      isplitl [H1]; · iexact H1
      isplitl [H2]; · iexact H2
      isplitl [H3]; · iexact H3
      iexists d4; iexact H4
  · -- points 5..53: the scratch is full; one block of the result
    have h1 : 4 ≤ t.val := by omega
    rw [show (dats m 0 c).leavesExact 4 t = owns (c : Thread nD τ) (ms4 t) fullShare ((dats m 0 c).after 4 t) from by
      unfold Dat.leavesExact; rw [live4 t h1], after4]
    iintro ⟨⟨⟨%S, %hS, HS⟩, Hg⟩, Ho, ⟨%d0, H0⟩, ⟨%d1, H1⟩, ⟨%d2, H2⟩, ⟨%d3, H3⟩, ⟨%d4, H4⟩⟩
    iapply ((runAggr c (grid0.coords t) (ms0 t) (hs0 t) (ms1 t) (hs1 t) (ms2 t) (hs2 t) (ms3 t) (hs3 t) (ms4 t) (hs4 t) scM hsc (fun h => h0 ((build_iff t).mp h)) ((aggr_iff t).mpr h1) (iblk m c 0 t) (iblk m c 1 t) (iblk m c 2 t) (iblk m c 3 t) S).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%f4, H4⟩, HS⟩
    isplitl [HS Hg]
    · isplitl [HS]
      · iexists S
        isplitr; · ipureintro; exact built_mono m c t.val (by omega) S hS
        iexact HS
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro
    rw [out_of_aggr, built_full m c t.val (by omega) S hS]
    rfl

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is built yet. -/
theorem inv_in (c : Dev nD) : Pipeline.ΦA spec0 c ⊢ (dats m 0 c).Φ 0 := by
  rw [show (dats m 0 c).Φ 0 = PhiS m c 0 from rfl, launchInv_eq]
  unfold PhiS
  iintro ⟨⟨%S, HS⟩, Hg⟩
  isplitl [HS]
  · iexists S
    isplitr; · ipureintro; exact built_zero m c S
    iexact HS
  iexact Hg

/-- After the last point the invariant gives that back: what the scratch holds is forgotten. -/
theorem inv_out (c : Dev nD) : (dats m 0 c).Φ (Fin.last cfg0.N) ⊢ Pipeline.ΦA spec0 c := by
  rw [show (dats m 0 c).Φ (Fin.last cfg0.N) = PhiS m c (Fin.last cfg0.N).val from rfl, launchInv_eq]
  unfold PhiS
  iintro ⟨⟨%S, %hS, HS⟩, Hg⟩
  isplitl [HS]
  · iexists S; iexact HS
  iexact Hg

set_option backward.isDefEq.respectTransparency.types false in
/-- Every weakly fair execution of @main terminates, every array of the pipeline ending at what the proof data give
    and every other buffer at what the host operations after the region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := inv_in m) (hout := inv_out m)

/-- The frame: @main runs and the four arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.Payload.lean ====
/-
  The two products of the graph-convolution kernel, read at one entry.

  The first product takes a [2000, 512] block U of the transposed weights and the whole input X [256, 512] and
  contracts the second axis of both:           (p, q) ↦ ∑ i, U (p, i) * X (q, i).
  The second takes a [200, 10000] block B of the adjacency matrix, the whole transposed support T [10000, 256]
  and a [200, 1] column c of the bias, and gives  (p, q) ↦ (∑ k, B (p, k) * T (k, q)) + c (p, 0):
  a product into a zero accumulator is the plain sum over the contracted coordinate, a cast of a shape to
  itself is the identity, and the column is repeated along the 256 lanes.
-/
import proofs.«131987_g21835613733112_rerun558fix_23_35_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.GraphConv.Pay

open Idealize.ShloMosaic Idealize.ShloMosaic.ValueIdx
open Cert.KernelIdeal Cert.KernelIdeal.Gen

/-! ## The first product: both operands contract their second axis -/

/-- The first product's dimension numbers. -/
abbrev D1 : DotDims S2000x512 S256x512 S2000x256 := dot_S2000x512_S256x512_S2000x256_1_1_0_0_n_n

/-- At output entry (p, q) and contracted coordinate i the left operand is read at (p, i). -/
theorem D1_lhs (p : Fin 2000) (q : Fin 256) (i : Fin 512) :
    D1.lhsIdx (ix2 p q) ((contrEquiv1 D1 512 rfl rfl).symm i) = ix2 p i := by
  have c := contrEquiv1_symm_val D1 512 rfl rfl i
  funext ax; apply Fin.ext
  match ax with
  | ⟨0, _⟩ => simp [DotDims.lhsIdx, D1, dot_S2000x512_S256x512_S2000x256_1_1_0_0_n_n]; rfl
  | ⟨1, _⟩ => exact (D1.lhsIdx_val_of_single (cl := (1 : Fin 2)) rfl (ix2 p q) _).trans c

/-- … and the right operand at (q, i). -/
theorem D1_rhs (p : Fin 2000) (q : Fin 256) (i : Fin 512) :
    D1.rhsIdx (ix2 p q) ((contrEquiv1 D1 512 rfl rfl).symm i) = ix2 q i := by
  have c := contrEquiv1_symm_val D1 512 rfl rfl i
  funext ax; apply Fin.ext
  match ax with
  | ⟨0, _⟩ => simp [DotDims.rhsIdx, D1, dot_S2000x512_S256x512_S2000x256_1_1_0_0_n_n]; rfl
  | ⟨1, _⟩ => exact (D1.rhsIdx_val_of_single (cr := (1 : Fin 2)) rfl (ix2 p q) _).trans c

/-- The first product at entry (p, q): the sum over i of U (p, i) * X (q, i). -/
theorem pay1_apply (v6 : Vec Ideal S2000x512 .bf16) (v8 : Vec Ideal S256x512 .bf16) (p : Fin 2000) (q : Fin 256) :
    k0_pay1 (F := Ideal) v6 v8 (ix2 p q) = ∑ i : Fin 512, v6 (ix2 p i) * v8 (ix2 q i) := by
  have e6 : shapeCast S2000x512 v6 shapeCasts_S2000x512_S2000x512 = v6 := shapeCast_self v6 _
  have e8 : shapeCast S256x512 v8 shapeCasts_S256x512_S256x512 = v8 := shapeCast_self v8 _
  unfold k0_pay1
  refine (congrFun (shapeCast_self _ _) (ix2 p q)).trans ?_
  rw [e6, e8]
  refine (Ideal.matmul_constant_zero_apply (φ₁ := .bf16) (φ₂ := .bf16) D1 none v6 v8 (ix2 p q)).trans ?_
  rw [← Equiv.sum_comp (contrEquiv1 D1 512 rfl rfl).symm]
  refine Finset.sum_congr rfl fun i _ => ?_
  rw [D1_lhs, D1_rhs]

/-! ## The second product: rows of the block against columns of the support, plus the bias column -/

/-- The second product's dimension numbers: the left operand contracts its second axis, the right its first. -/
abbrev D2 : DotDims S200x10000 S10000x256 S200x256 := dot_S200x10000_S10000x256_S200x256_1_0_0_1_n_n

/-- At output entry (p, q) and contracted coordinate k the left operand is read at (p, k). -/
theorem D2_lhs (p : Fin 200) (q : Fin 256) (k : Fin 10000) :
    D2.lhsIdx (ix2 p q) ((contrEquiv1 D2 10000 rfl rfl).symm k) = ix2 p k := by
  have c := contrEquiv1_symm_val D2 10000 rfl rfl k
  funext ax; apply Fin.ext
  match ax with
  | ⟨0, _⟩ => simp [DotDims.lhsIdx, D2, dot_S200x10000_S10000x256_S200x256_1_0_0_1_n_n]; rfl
  | ⟨1, _⟩ => exact (D2.lhsIdx_val_of_single (cl := (1 : Fin 2)) rfl (ix2 p q) _).trans c

/-- … and the right operand at (k, q). -/
theorem D2_rhs (p : Fin 200) (q : Fin 256) (k : Fin 10000) :
    D2.rhsIdx (ix2 p q) ((contrEquiv1 D2 10000 rfl rfl).symm k) = ix2 k q := by
  have c := contrEquiv1_symm_val D2 10000 rfl rfl k
  funext ax; apply Fin.ext
  match ax with
  | ⟨0, _⟩ => exact (D2.rhsIdx_val_of_single (cr := (0 : Fin 2)) rfl (ix2 p q) _).trans c
  | ⟨1, _⟩ => simp [DotDims.rhsIdx, D2, dot_S200x10000_S10000x256_S200x256_1_0_0_1_n_n]; rfl

/-- A [200, 1] column repeated along 256 lanes reads, at (p, q), the column's entry p. -/
theorem column_lanes_apply {α : Type} (v : S200x1.Idx → α) (h : S200x1.Broadcasts S200x256) (p : Fin 200) (q : Fin 256) :
    broadcastTo S200x256 v h (ix2 p q) = v (ix2 p 0) := by
  refine broadcastTo_apply v h (ix2 p q) (ix2 p (0 : Fin 1)) fun ax => ?_
  match ax with
  | ⟨0, _⟩ => rfl
  | ⟨1, _⟩ => rfl

/-- The second product at entry (p, q): the sum over k of B (p, k) * T (k, q), plus the bias column's entry p. -/
theorem pay2_apply (v6 : Vec Ideal S200x10000 .f32) (v7 : Vec Ideal S10000x256 .f32) (v9 : Vec Ideal S200x1 .f32)
    (p : Fin 200) (q : Fin 256) :
    k0_pay2 (F := Ideal) v6 v7 v9 (ix2 p q) = (∑ k : Fin 10000, v6 (ix2 p k) * v7 (ix2 k q)) + v9 (ix2 p 0) := by
  have e9 : shapeCast S200x1 v9 shapeCasts_S200x1_S200x1 = v9 := shapeCast_self v9 _
  unfold k0_pay2
  rw [e9]
  refine (addf_apply (φ := .f32) _ _ (ix2 p q)).trans ?_
  refine congrArg₂ (· + ·) ?_ (column_lanes_apply v9 _ p q)
  refine (Ideal.matmul_constant_zero_apply (φ₁ := .f32) (φ₂ := .f32) D2 none v6 v7 (ix2 p q)).trans ?_
  rw [← Equiv.sum_comp (contrEquiv1 D2 10000 rfl rfl).symm]
  refine Finset.sum_congr rfl fun k _ => ?_
  rw [D2_lhs, D2_rhs]

end Cert.GraphConv.Pay

end
-- ==== Proof.HostSide.lean ====
/-
  What the host does around the kernel, entry by entry.

  Before the kernel runs, the weights W [512, 10000] are transposed to [10000, 512] and rounded to the
  narrower format (a change of format is the identity on the extended reals), the input X [256, 512] is
  rounded likewise, and the bias b [10000] is viewed as a [10000, 1] column. So the kernel finds
      Wᵀ (k, i) = W (i, k),      X (r, i) unchanged,      the column's entry (o, 0) = b o.
  After the kernel the [10000, 256] result is transposed once more: entry (r, o) of the final array is entry
  (o, r) of what the kernel wrote.
-/
import proofs.«131987_g21835613733112_rerun558fix_23_35_alg».proof.Proof.Gen.KernelIdeal.Frame
import Idealize.ShloMosaic.Lib.ValueIdx
import Idealize.ShloMosaic.Lib.ValueLayout
import Idealize.ShloMosaic.Lib.Pipeline.Value

noncomputable section

namespace Cert.GraphConv.Host

open Idealize.ShloMosaic Idealize.ShloMosaic.ValueIdx Idealize.ShloMosaic.TcCoe
open Cert.KernelIdeal Cert.KernelIdeal.Gen

variable (m : (ℓ : Loc nD τ sig) → Buf (Elt Ideal) ℓ) (c : Dev nD)

/-! ## The three arrays the host prepares, as whole arrays -/

/-- The first operand: the weights transposed, then rounded. -/
theorem V_main_v1_eq :
    (V m c main_v1 : S10000x512.Idx → EReal) =
      truncf (F := Ideal) .bf16
        (transpose S10000x512 [1, 0] (m ((c : Thread nD τ).loc main_arg2)) transposes_S512x10000_S10000x512_1_0)
        bitsLt_bf16_f32 := by
  show StableHlo.after hostOps0 (fun b => m (c, b)) (Proc.devRef .tc main_v1) = _
  after_results

/-- The second operand: the input rounded. -/
theorem V_main_v2_eq :
    (V m c main_v2 : S256x512.Idx → EReal) =
      truncf (F := Ideal) .bf16 (m ((c : Thread nD τ).loc main_arg0)) bitsLt_bf16_f32 := by
  show StableHlo.after hostOps0 (fun b => m (c, b)) (Proc.devRef .tc main_v2) = _
  after_results

/-- The fourth operand: the bias as a column. -/
theorem V_main_v3_eq :
    (V m c main_v3 : S10000x1.Idx → EReal) =
      shapeCast S10000x1 (m ((c : Thread nD τ).loc main_arg3)) shapeCasts_S10000_S10000x1 := by
  show StableHlo.after hostOps0 (fun b => m (c, b)) (Proc.devRef .tc main_v3) = _
  after_results
  rfl

/-! ## The same, read at one entry -/

/-- Entry (k, i) of the first operand is W (i, k). -/
theorem V_main_v1_apply (k : Fin 10000) (i : Fin 512) :
    (V m c main_v1 : S10000x512.Idx → EReal) (ix2 k i)
      = (m ((c : Thread nD τ).loc main_arg2) : S512x10000.Idx → EReal) (ix2 i k) := by
  refine (congrFun (V_main_v1_eq m c) (ix2 k i)).trans ?_
  refine (truncf_apply (φ := .f32) (ψ := .bf16) _ _ (ix2 k i)).trans ?_
  exact transpose_ix2_apply (a := 512) (b := 10000) _ _ k i

/-- Entry (r, i) of the second operand is X (r, i). -/
theorem V_main_v2_apply (r : Fin 256) (i : Fin 512) :
    (V m c main_v2 : S256x512.Idx → EReal) (ix2 r i)
      = (m ((c : Thread nD τ).loc main_arg0) : S256x512.Idx → EReal) (ix2 r i) := by
  refine (congrFun (V_main_v2_eq m c) (ix2 r i)).trans ?_
  exact truncf_apply (φ := .f32) (ψ := .bf16) _ _ (ix2 r i)

/-- Entry (o, u) of the bias column, u the one coordinate of the unit axis, is b o. -/
theorem V_main_v3_apply_unit (o : Fin 10000) (u : Fin 1) :
    (V m c main_v3 : S10000x1.Idx → EReal) (ix2 o u)
      = (m ((c : Thread nD τ).loc main_arg3) : S10000.Idx → EReal) (ix1 o) := by
  refine (congrFun (V_main_v3_eq m c) (ix2 o u)).trans ?_
  refine shapeCast_apply _ _ (ix2 o u) (ix1 o) ?_
  have hu : u.val = 0 := by omega
  rw [Shape.rowMajor_val_two, Shape.rowMajor_val_one]
  show o.val = o.val * 1 + u.val
  omega

/-- Entry (o, 0) of the bias column is b o. -/
theorem V_main_v3_apply (o : Fin 10000) :
    (V m c main_v3 : S10000x1.Idx → EReal) (ix2 o 0)
      = (m ((c : Thread nD τ).loc main_arg3) : S10000.Idx → EReal) (ix1 o) :=
  V_main_v3_apply_unit m c o 0

/-! ## The transpose after the kernel -/

/-- The final transpose at entry (r, o) reads the kernel's result at (o, r). -/
theorem tail_transpose_apply (y : (⟨S10000x256, .f32⟩ : BufTy).Contents (Elt Ideal)) (r : Fin 256) (o : Fin 10000) :
    (transpose S256x10000 [1, 0] y transposes_S10000x256_S256x10000_1_0 : S256x10000.Idx → EReal) (ix2 r o)
      = (y : S10000x256.Idx → EReal) (ix2 o r) :=
  transpose_ix2_apply (a := 10000) (b := 256) (α := EReal) y _ r o

end Cert.GraphConv.Host

end
-- ==== Proof.Spec.lean ====
/-
  The graph-convolution layer as one function of the argument arrays, over the extended reals.

  With x : [256, 512], A : [10000, 10000], W : [512, 10000], b : [10000], the transposed support is
      sT (k, r) = ∑ i, W (i, k) * x (r, i)                      (k < 10000, r < 256),
  and the layer's result at row r, column o is
      out (r, o) = (∑ k, A (o, k) * sT (k, r)) + b o.
  The kernel computes sT five row-slices of 2000 at a time and then out fifty column-slices of 200 at a
  time (transposed); the reference computes x · W first. Both are this function: the only law between the
  two spellings is commutativity of one product.
-/
import Idealize.ShloMosaic.PureOps.Ideal
import Idealize.ShloMosaic.Lib.ValueIdx

noncomputable section

namespace Cert.GraphConv

open Idealize.ShloMosaic Idealize.ShloMosaic.ValueIdx

/-- The shapes of the four arguments and of the result. -/
abbrev SX : Shape := ⟨2, ![256, 512]⟩
abbrev SA : Shape := ⟨2, ![10000, 10000]⟩
abbrev SW : Shape := ⟨2, ![512, 10000]⟩
abbrev SB : Shape := ⟨1, ![10000]⟩
abbrev SO : Shape := ⟨2, ![256, 10000]⟩

/-- The transposed support: entry (k, r) of (x · W)ᵀ, written with W's entry first. -/
def supportT (x : SX.Idx → EReal) (W : SW.Idx → EReal) (k : Fin 10000) (r : Fin 256) : EReal :=
  ∑ i : Fin 512, W (ix2 i k) * x (ix2 r i)

/-- The layer's result at row `r`, column `o`. -/
def outAt (x : SX.Idx → EReal) (A : SA.Idx → EReal) (W : SW.Idx → EReal) (b : SB.Idx → EReal)
    (r : Fin 256) (o : Fin 10000) : EReal :=
  (∑ k : Fin 10000, A (ix2 o k) * supportT x W k r) + b (ix1 o)

/-- The layer's result as one array. -/
def G (x : SX.Idx → EReal) (A : SA.Idx → EReal) (W : SW.Idx → EReal) (b : SB.Idx → EReal) : SO.Idx → EReal :=
  fun j => outAt x A W b (j 0) (j 1)

theorem G_ix2 (x : SX.Idx → EReal) (A : SA.Idx → EReal) (W : SW.Idx → EReal) (b : SB.Idx → EReal)
    (r : Fin 256) (o : Fin 10000) : G x A W b (ix2 r o) = outAt x A W b r o := rfl

/-- The support with x's entry first — the reference's spelling — is the same number. -/
theorem supportT_comm (x : SX.Idx → EReal) (W : SW.Idx → EReal) (k : Fin 10000) (r : Fin 256) :
    (∑ i : Fin 512, x (ix2 r i) * W (ix2 i k)) = supportT x W k r := by
  unfold supportT
  exact Finset.sum_congr rfl fun i _ => mul_comm _ _

end Cert.GraphConv

end
-- ==== Proof.KernelBlocks.lean ====
/-
  The kernel's blocks, read off the argument arrays entry by entry.

  The grid has 54 points. At a point t the first window holds rows 2000 · min t 4 … of the transposed weights
  (so the five building points t < 5 hold the five slices of 2000 rows), the second the whole input, and the
  third, fourth and output windows rows 200 · (t − 4) … of the adjacency matrix, of the bias column and of the
  result (so the fifty aggregating points t ≥ 4 hold the fifty slices of 200 rows). An entry of a block is the
  array's entry at block index × block size + the coordinate inside the block, on each axis.

  Hence row k of the scratch, built at point ⌊k / 2000⌋ from row k mod 2000 of that point's block, is the
  transposed support ∑ i, W (i, k) · x (q, i); and row p of what point t ≥ 4 leaves in the output's buffer is
  row o = 200 · (t − 4) + p of the layer's result, (∑ k, A (o, k) · support (k, q)) + b o.
-/
import proofs.«131987_g21835613733112_rerun558fix_23_35_alg».proof.Proof.BodyIdeal.Data
import proofs.«131987_g21835613733112_rerun558fix_23_35_alg».proof.Proof.Payload
import proofs.«131987_g21835613733112_rerun558fix_23_35_alg».proof.Proof.HostSide
import proofs.«131987_g21835613733112_rerun558fix_23_35_alg».proof.Proof.Spec
import Idealize.ShloMosaic.Lib.ValueIdx
import Idealize.ShloMosaic.Lib.Pipeline.Value

set_option maxRecDepth 16384

noncomputable section

namespace Cert.GraphConv.Blocks

open Idealize.ShloMosaic Idealize.ShloMosaic.ValueIdx Idealize.ShloMosaic.TcCoe
open Cert.KernelIdeal Cert.KernelIdeal.Gen Cert.KernelIdeal.Body

variable (m : (ℓ : Loc nD τ sig) → Buf (Elt Ideal) ℓ) (c : Dev nD)

/-! ## Which array each window reads, and which block at each point -/

theorem arr0 : Pipeline.arrRef spec0 0 = main_v1 := rfl
theorem arr1 : Pipeline.arrRef spec0 1 = main_v2 := rfl
theorem arr2 : Pipeline.arrRef spec0 2 = main_arg1 := rfl
theorem arr3 : Pipeline.arrRef spec0 3 = main_v3 := rfl
theorem arr4 : Pipeline.arrRef spec0 4 = main_v4 := rfl

/-- The transposed weights' window is at block row min t 4, block column 0. -/
theorem idx0 : ∀ t : Fin cfg0.N, win0_0.index t 0 = min t.val 4 ∧ win0_0.index t 1 = 0 :=
  (by decide +kernel : ∀ t : Fin grid0.N, win0_0.index t 0 = min t.val 4 ∧ win0_0.index t 1 = 0)

/-- The input's window is the whole array at every point. -/
theorem idx1 : ∀ t : Fin cfg0.N, win0_1.index t 0 = 0 ∧ win0_1.index t 1 = 0 :=
  (by decide +kernel : ∀ t : Fin grid0.N, win0_1.index t 0 = 0 ∧ win0_1.index t 1 = 0)

/-- The adjacency matrix's window is at block row t − 4 (zero before the fifth point), block column 0. -/
theorem idx2 : ∀ t : Fin cfg0.N, win0_2.index t 0 = t.val - 4 ∧ win0_2.index t 1 = 0 :=
  (by decide +kernel : ∀ t : Fin grid0.N, win0_2.index t 0 = t.val - 4 ∧ win0_2.index t 1 = 0)

/-- The bias column's window is at block row t − 4 likewise. -/
theorem idx3 : ∀ t : Fin cfg0.N, win0_3.index t 0 = t.val - 4 ∧ win0_3.index t 1 = 0 :=
  (by decide +kernel : ∀ t : Fin grid0.N, win0_3.index t 0 = t.val - 4 ∧ win0_3.index t 1 = 0)

/-! ## Each input block at an entry, against the array the window reads -/

/-- The first window's block at point t, entry x, is the transposed weights at any index with row
    2000 · min t 4 + x₀ and column x₁. -/
theorem iblk0_read (t : Fin cfg0.N) (x : S2000x512.Idx) (j : S10000x512.Idx)
    (h0 : (j 0).val = 2000 * min t.val 4 + (x 0).val) (h1 : (j 1).val = (x 1).val) :
    (iblk m c 0 t : Vec Ideal S2000x512 .bf16) x = (V m c main_v1 : S10000x512.Idx → EReal) j := by
  unfold iblk
  rw [View.read_apply]
  show V m c main_v1 _ = V m c main_v1 _
  refine congrArg (V m c main_v1) ?_
  funext a
  apply Fin.ext
  match a with
  | ⟨0, _⟩ => show win0_0.index t 0 * 2000 + 1 * (x 0).val = (j 0).val; rw [(idx0 t).1, h0]; omega
  | ⟨1, _⟩ => show win0_0.index t 1 * 512 + 1 * (x 1).val = (j 1).val; rw [(idx0 t).2, h1]; omega

/-- The second window's block at any point is the rounded input itself. -/
theorem iblk1_read (t : Fin cfg0.N) (x : S256x512.Idx) :
    (iblk m c 1 t : Vec Ideal S256x512 .bf16) x = (V m c main_v2 : S256x512.Idx → EReal) x := by
  unfold iblk
  rw [View.read_apply]
  show V m c main_v2 _ = V m c main_v2 _
  refine congrArg (V m c main_v2) ?_
  funext a
  apply Fin.ext
  match a with
  | ⟨0, _⟩ => show win0_1.index t 0 * 256 + 1 * (x 0).val = (x 0).val; rw [(idx1 t).1]; omega
  | ⟨1, _⟩ => show win0_1.index t 1 * 512 + 1 * (x 1).val = (x 1).val; rw [(idx1 t).2]; omega

/-- The third window's block at point t, entry x, is the adjacency matrix at any index with row
    200 · (t − 4) + x₀ and column x₁. -/
theorem iblk2_read (t : Fin cfg0.N) (x : S200x10000.Idx) (j : S10000x10000.Idx)
    (h0 : (j 0).val = 200 * (t.val - 4) + (x 0).val) (h1 : (j 1).val = (x 1).val) :
    (iblk m c 2 t : Vec Ideal S200x10000 .f32) x = (V m c main_arg1 : S10000x10000.Idx → EReal) j := by
  unfold iblk
  rw [View.read_apply]
  show V m c main_arg1 _ = V m c main_arg1 _
  refine congrArg (V m c main_arg1) ?_
  funext a
  apply Fin.ext
  match a with
  | ⟨0, _⟩ => show win0_2.index t 0 * 200 + 1 * (x 0).val = (j 0).val; rw [(idx2 t).1, h0]; omega
  | ⟨1, _⟩ => show win0_2.index t 1 * 10000 + 1 * (x 1).val = (j 1).val; rw [(idx2 t).2, h1]; omega

/-- The fourth window's block at point t, entry x, is the bias column at any index with row
    200 · (t − 4) + x₀ and column x₁. -/
theorem iblk3_read (t : Fin cfg0.N) (x : S200x1.Idx) (j : S10000x1.Idx)
    (h0 : (j 0).val = 200 * (t.val - 4) + (x 0).val) (h1 : (j 1).val = (x 1).val) :
    (iblk m c 3 t : Vec Ideal S200x1 .f32) x = (V m c main_v3 : S10000x1.Idx → EReal) j := by
  unfold iblk
  rw [View.read_apply]
  show V m c main_v3 _ = V m c main_v3 _
  refine congrArg (V m c main_v3) ?_
  funext a
  apply Fin.ext
  match a with
  | ⟨0, _⟩ => show win0_3.index t 0 * 200 + 1 * (x 0).val = (j 0).val; rw [(idx3 t).1, h0]; omega
  | ⟨1, _⟩ => show win0_3.index t 1 * 1 + 1 * (x 1).val = (j 1).val; rw [(idx3 t).2, h1]; omega

/-! ## The same at coordinates, and against the kernel's four arguments -/

/-- At a building point t < 5, row p of the first block is row k = 2000 · t + p of the transposed weights. -/
theorem iblk0_apply (t : Fin cfg0.N) (ht : t.val < 5) (p : Fin 2000) (i : Fin 512) (k : Fin 10000)
    (hk : k.val = 2000 * t.val + p.val) :
    (iblk m c 0 t : Vec Ideal S2000x512 .bf16) (ix2 p i) = (V m c main_v1 : S10000x512.Idx → EReal) (ix2 k i) :=
  iblk0_read m c t (ix2 p i) (ix2 k i)
    (by show k.val = 2000 * min t.val 4 + p.val; rw [hk]; omega) rfl

/-- … which is W (i, k). -/
theorem iblk0_weights (t : Fin cfg0.N) (ht : t.val < 5) (p : Fin 2000) (i : Fin 512) (k : Fin 10000)
    (hk : k.val = 2000 * t.val + p.val) :
    (iblk m c 0 t : Vec Ideal S2000x512 .bf16) (ix2 p i)
      = (m ((c : Thread nD τ).loc main_arg2) : S512x10000.Idx → EReal) (ix2 i k) :=
  (iblk0_apply m c t ht p i k hk).trans (Host.V_main_v1_apply m c k i)

/-- The second block at (r, i) is the rounded input at (r, i). -/
theorem iblk1_apply (t : Fin cfg0.N) (r : Fin 256) (i : Fin 512) :
    (iblk m c 1 t : Vec Ideal S256x512 .bf16) (ix2 r i) = (V m c main_v2 : S256x512.Idx → EReal) (ix2 r i) :=
  iblk1_read m c t (ix2 r i)

/-- … which is x (r, i). -/
theorem iblk1_input (t : Fin cfg0.N) (r : Fin 256) (i : Fin 512) :
    (iblk m c 1 t : Vec Ideal S256x512 .bf16) (ix2 r i)
      = (m ((c : Thread nD τ).loc main_arg0) : S256x512.Idx → EReal) (ix2 r i) :=
  (iblk1_apply m c t r i).trans (Host.V_main_v2_apply m c r i)

/-- At an aggregating point t ≥ 4, row p of the third block is row o = 200 · (t − 4) + p of A. -/
theorem iblk2_apply (t : Fin cfg0.N) (ht : 4 ≤ t.val) (p : Fin 200) (k : Fin 10000) (o : Fin 10000)
    (ho : o.val = 200 * (t.val - 4) + p.val) :
    (iblk m c 2 t : Vec Ideal S200x10000 .f32) (ix2 p k)
      = (m ((c : Thread nD τ).loc main_arg1) : S10000x10000.Idx → EReal) (ix2 o k) :=
  (iblk2_read m c t (ix2 p k) (ix2 o k) ho rfl).trans (congrFun (V_main_arg1 m c) (ix2 o k))

/-- At an aggregating point t ≥ 4, entry p of the fourth block is b o, o = 200 · (t − 4) + p. -/
theorem iblk3_apply (t : Fin cfg0.N) (ht : 4 ≤ t.val) (p : Fin 200) (o : Fin 10000)
    (ho : o.val = 200 * (t.val - 4) + p.val) :
    (iblk m c 3 t : Vec Ideal S200x1 .f32) (ix2 p 0)
      = (m ((c : Thread nD τ).loc main_arg3) : S10000.Idx → EReal) (ix1 o) :=
  (iblk3_read m c t (ix2 p (0 : Fin 1)) (ix2 o (0 : Fin 1)) ho rfl).trans (Host.V_main_v3_apply m c o)

/-! ## The scratch is the transposed support -/

/-- Row k, lane q of the scratch as the five building points leave it: the building point ⌊k / 2000⌋ contracts
    row k mod 2000 of its block of the transposed weights, which is row k of them, against row q of the input. -/
theorem sFull_apply (k : Fin 10000) (q : Fin 256) :
    (sFull (F := Ideal) m c : S10000x256.Idx → EReal) (ix2 k q)
      = supportT (m ((c : Thread nD τ).loc main_arg0)) (m ((c : Thread nD τ).loc main_arg2)) k q := by
  have hlt : k.val / 2000 < 5 := by have := k.isLt; omega
  have hrow : k.val = 2000 * (k.val / 2000) + k.val % 2000 := by omega
  unfold sFull
  refine (Pay.pay1_apply (iblk m c 0 (sliceOf (ix2 k q))) (iblk m c 1 (sliceOf (ix2 k q)))
    (⟨k.val % 2000, Nat.mod_lt _ (by decide)⟩ : Fin 2000) q).trans ?_
  unfold supportT
  refine Finset.sum_congr rfl fun i _ => ?_
  exact congrArg₂ (· * ·)
    (iblk0_weights m c (sliceOf (ix2 k q)) hlt ⟨k.val % 2000, Nat.mod_lt _ (by decide)⟩ i k hrow)
    (iblk1_input m c (sliceOf (ix2 k q)) q i)

/-! ## What an aggregating point leaves is its rows of the layer's result -/

/-- Row p, lane q of what point t ≥ 4 leaves in the output's buffer is the layer's result at row q, column
    o = 200 · (t − 4) + p: row o of A against the support, plus b o. -/
theorem outBlk_apply (t : Fin cfg0.N) (ht : 4 ≤ t.val) (p : Fin 200) (q : Fin 256) (o : Fin 10000)
    (ho : o.val = 200 * (t.val - 4) + p.val) :
    (outBlk (F := Ideal) m c t : S200x256.Idx → EReal) (ix2 p q)
      = outAt (m ((c : Thread nD τ).loc main_arg0)) (m ((c : Thread nD τ).loc main_arg1))
          (m ((c : Thread nD τ).loc main_arg2)) (m ((c : Thread nD τ).loc main_arg3)) q o := by
  unfold outBlk
  refine (Pay.pay2_apply (iblk m c 2 t) (sFull m c) (iblk m c 3 t) p q).trans ?_
  unfold outAt
  exact congrArg₂ (· + ·)
    (Finset.sum_congr rfl fun k _ => congrArg₂ (· * ·) (iblk2_apply m c t ht p k o ho) (sFull_apply m c k q))
    (iblk3_apply m c t ht p o ho)

end Cert.GraphConv.Blocks

end
-- ==== Proof.KernelArray.lean ====
/-
  The output array after the kernel, and the program's result after the final transpose.

  The kernel writes its [10000, 256] output fifty row-blocks of 200 at a time: the grid point t ≥ 4 writes
  rows 200 (t − 4) … 200 (t − 4) + 199, and the points 0 … 3 write nothing. Given that the block a point
  t ≥ 4 leaves is the layer's result on those rows (transposed: entry (p, q) of the block is out (q, o) with
  o = 200 (t − 4) + p), every row o is written by exactly the point o / 200 + 4, so the whole array ends as
      outT (o, r) = out (r, o),
  and the final transpose turns it into the layer's result (r, o) ↦ out (r, o).
-/
import proofs.«131987_g21835613733112_rerun558fix_23_35_alg».proof.Proof.BodyIdeal.Data
import proofs.«131987_g21835613733112_rerun558fix_23_35_alg».proof.Proof.HostSide
import proofs.«131987_g21835613733112_rerun558fix_23_35_alg».proof.Proof.Spec
import Idealize.ShloMosaic.Lib.Pipeline.Value
import Idealize.ShloMosaic.Lib.ValueIdx

set_option maxRecDepth 16384

noncomputable section

namespace Cert.GraphConv.Arr

open Idealize.ShloMosaic Idealize.ShloMosaic.ValueIdx Idealize.ShloMosaic.TcCoe
open Idealize.ShloMosaic.Pipeline (Dat Cfg Window)
open Cert.KernelIdeal Cert.KernelIdeal.Gen

variable (m : (ℓ : Loc nD τ sig) → Buf (Elt Ideal) ℓ) (c : Dev nD)

/-! ## The four argument arrays, and what is assumed of a written block -/

/-- The input x : [256, 512]. -/
abbrev xA : SX.Idx → EReal := m ((c : Thread nD τ).loc main_arg0)
/-- The adjacency matrix A : [10000, 10000]. -/
abbrev aA : SA.Idx → EReal := m ((c : Thread nD τ).loc main_arg1)
/-- The weights W : [512, 10000]. -/
abbrev wA : SW.Idx → EReal := m ((c : Thread nD τ).loc main_arg2)
/-- The bias b : [10000]. -/
abbrev bA : SB.Idx → EReal := m ((c : Thread nD τ).loc main_arg3)

/-- The block an aggregating point t ≥ 4 leaves is the layer's result on rows 200 (t − 4) … + 199, transposed:
    entry (p, q) is out (q, o) for o = 200 (t − 4) + p. -/
abbrev OutBlkIs : Prop :=
  ∀ (t : Fin cfg0.N), 4 ≤ t.val → ∀ (p : Fin 200) (q : Fin 256) (o : Fin 10000), o.val = 200 * (t.val - 4) + p.val →
    (Body.outBlk (F := Ideal) m c t : S200x256.Idx → EReal) (ix2 p q) = outAt (xA m c) (aA m c) (wA m c) (bA m c) q o

/-- The transposed result: entry (o, r) is out (r, o). -/
def outT : Buf (Elt Ideal) ((cfg0.win 4).arr.view.loc (c.tc : Thread nD τ)) :=
  fun j => outAt (xA m c) (aA m c) (wA m c) (bA m c) (j 1) (j 0)

/-- Read at coordinates. -/
theorem outT_ix2 (o : Fin 10000) (r : Fin 256) :
    (outT m c : S10000x256.Idx → EReal) (ix2 o r) = outAt (xA m c) (aA m c) (wA m c) (bA m c) r o := rfl

/-! ## Which points write the output, and where -/

/-- The output's block is written back exactly at the points t ≥ 4. -/
theorem flush4_iff : ∀ t : Fin cfg0.N, (cfg0.win 4).flush t = true ↔ 4 ≤ t.val :=
  (by decide +kernel : ∀ t : Fin grid0.N, win0_4.flush t = true ↔ 4 ≤ t.val)

/-- The output's block at point t is block row t − 4 (row 0 before point 4), block column 0. -/
theorem blockRow4 : ∀ t : Fin cfg0.N, win0_4.index t (0 : Fin 2) = t.val - 4 ∧ win0_4.index t (1 : Fin 2) = 0 :=
  (by decide +kernel : ∀ t : Fin grid0.N, _)

/-- What a point t ≥ 4 writes back is its block of the transposed result: entry (p, q) of the block sits at row
    (t − 4) · 200 + p, column q of the array. -/
theorem flushed_eq (hout : OutBlkIs m c) (t : Fin cfg0.N) (hf : (cfg0.win 4).flush t = true) :
    (Body.dats m 0 c).flushed 4 t = ((cfg0.win 4).blk t).view.read (Elt Ideal) (outT m c) := by
  have h4 : 4 ≤ t.val := (flush4_iff t).mp hf
  obtain ⟨e0, e1⟩ := blockRow4 t
  show (cfg0.win 4).cut (grid0.coords t) ((Body.dats m 0 c).after 4 t) = _
  rw [Body.after4]
  funext y
  have hy0 : (y 0).val < 200 := (y 0).isLt
  have hy1 : (y 1).val < 256 := (y 1).isLt
  have hy : (y : S200x256.Idx) = ix2 (⟨(y 0).val, hy0⟩ : Fin 200) (⟨(y 1).val, hy1⟩ : Fin 256) := by
    funext a; match a with | ⟨0, _⟩ => rfl | ⟨1, _⟩ => rfl
  have ho : 200 * (t.val - 4) + (y 0).val < 10000 := by
    have := t.isLt; have := Body.N54; omega
  show (Body.outBlk m c t : S200x256.Idx → EReal) y = outT m c (((cfg0.win 4).blk t).view.emb y)
  refine ((congrArg (Body.outBlk m c t : S200x256.Idx → EReal) hy).trans
    (hout t h4 ⟨(y 0).val, hy0⟩ ⟨(y 1).val, hy1⟩ ⟨200 * (t.val - 4) + (y 0).val, ho⟩ rfl)).trans ?_
  unfold outT
  refine congrArg₂ (outAt (xA m c) (aA m c) (wA m c) (bA m c)) ?_ ?_
  · apply Fin.ext
    show (y 1).val = win0_4.index t 1 * 256 + 1 * (y 1).val
    rw [e1]; omega
  · apply Fin.ext
    show 200 * (t.val - 4) + (y 0).val = win0_4.index t 0 * 200 + 1 * (y 0).val
    rw [e0]; omega

/-- An entry of the output array is in point t's block iff each coordinate is in the block's range on its axis. -/
theorem mem_blk (t : Fin cfg0.N) (i : S10000x256.Idx) :
    i ∈ ((cfg0.win 4).blk t).view.set ↔
      ∀ a : Fin 2, win0_4.index t a * S200x256.size a ≤ (i a).val
        ∧ (i a).val < win0_4.index t a * S200x256.size a + S200x256.size a := by
  show i ∈ ((View.whole main_v4).slice (win0_4.rect t)).set ↔ _
  rw [View.set_slice_whole, Rect.mem_set_unit]
  exact Iff.rfl

/-- Every entry is written: row o by the point o / 200 + 4. -/
theorem cover (i : S10000x256.Idx) :
    ∃ t : Fin cfg0.N, (cfg0.win 4).flush t = true ∧ i ∈ ((cfg0.win 4).blk t).view.set := by
  have hi0 : (i 0).val < 10000 := (i 0).isLt
  have hi1 : (i 1).val < 256 := (i 1).isLt
  have hN : cfg0.N = 54 := Body.N54
  have ht : (i 0).val / 200 + 4 < cfg0.N := by omega
  obtain ⟨e0, e1⟩ := blockRow4 ⟨(i 0).val / 200 + 4, ht⟩
  refine ⟨⟨(i 0).val / 200 + 4, ht⟩, (flush4_iff _).mpr (Nat.le_add_left _ _), ?_⟩
  rw [mem_blk]
  intro a
  match a with
  | ⟨0, _⟩ =>
    show win0_4.index ⟨(i 0).val / 200 + 4, ht⟩ (0 : Fin 2) * 200 ≤ (i 0).val
      ∧ (i 0).val < win0_4.index ⟨(i 0).val / 200 + 4, ht⟩ (0 : Fin 2) * 200 + 200
    rw [e0]
    show ((i 0).val / 200 + 4 - 4) * 200 ≤ (i 0).val ∧ (i 0).val < ((i 0).val / 200 + 4 - 4) * 200 + 200
    omega
  | ⟨1, _⟩ =>
    show win0_4.index ⟨(i 0).val / 200 + 4, ht⟩ (1 : Fin 2) * 256 ≤ (i 1).val
      ∧ (i 1).val < win0_4.index ⟨(i 0).val / 200 + 4, ht⟩ (1 : Fin 2) * 256 + 256
    rw [e1]; omega

/-- So the output array ends as the transposed result. -/
theorem final (hout : OutBlkIs m c) : (Body.dats m 0 c).arrAt 4 cfg0.N = outT m c :=
  (Body.dats m 0 c).arrAt_eq_of_cover 4 (outT m c) (flushed_eq m c hout) cover

/-! ## The final transpose -/

/-- After the final transpose the program's result is the layer's: entry (r, o) is out (r, o). -/
theorem tail_eq (hout : OutBlkIs m c) :
    Pipeline.afterTail₀ cfgs (Body.dats m) 0 (V0 m) [hostOps1] c main_v5
      = G (xA m c) (aA m c) (wA m c) (bA m c) := by
  unfold Pipeline.afterTail₀
  show StableHlo.after hostOps1 _ (Proc.devRef .tc main_v5) = _
  after_results
  have hw : Pipeline.withArrays (cfgs 0).spec c (V0 m c) (fun w => (Body.dats m 0 c).arrAt w (cfgs 0).N)
      (Proc.devRef .tc main_v4) = outT m c :=
    (Pipeline.withArrays_arr spec0 launch0.win.arr_inj c _ _ 4).trans (final m c hout)
  rw [hw]
  funext j
  obtain ⟨r, o, rfl⟩ : ∃ (r : Fin 256) (o : Fin 10000), j = ix2 r o := ⟨j 0, j 1, eq_ix2 j⟩
  exact Host.tail_transpose_apply (outT m c) r o

end Cert.GraphConv.Arr

end
-- ==== Proof.RefRun.lean ====
/-
  The reference side of the graph-convolution certificate, over the extended reals.

  The reference computes, in this order: the support x · W (a contraction over the 512 input features), its
  transpose, the aggregation A · (x · W)ᵀ (a contraction over the 10000 nodes), the transpose back, the bias
  spread over the 256 rows, and their sum. Read at row r and column o that is
      (∑ k, A (o, k) * (∑ i, x (r, i) * W (i, k))) + b o,
  which is the layer's function G of the specification once the inner product is written with W's entry first
  (commutativity of one product).
-/
import proofs.«131987_g21835613733112_rerun558fix_23_35_alg».proof.Proof.Gen.ReferenceIdeal.Read
import proofs.«131987_g21835613733112_rerun558fix_23_35_alg».proof.Proof.Gen.Pre_finite_inputs
import proofs.«131987_g21835613733112_rerun558fix_23_35_alg».proof.Proof.Spec
import proofs.«131987_g21835613733112_rerun558fix_23_35_alg».proof.Defs

noncomputable section

namespace Cert.GraphConv.Ref

open Idealize.ShloMosaic Idealize.ShloMosaic.ValueIdx Idealize.ShloMosaic.TcCoe Idealize.SL.Sem
open Cert.ReferenceIdeal Cert.ReferenceIdeal.Gen Cert.ReferenceIdeal.Read

/-! ## Each operation of the reference at a pair of coordinates -/

/-- The support x · W at row r, node k: the contraction over the input features, x's entry first. -/
theorem support_at (x : SX.Idx → EReal) (W : SW.Idx → EReal) (r : Fin 256) (k : Fin 10000) :
    val_main_v0 (F := Ideal) x W (ix2 r k) = ∑ i : Fin 512, x (ix2 r i) * W (ix2 i k) := by
  rw [val_main_v0_apply]
  refine Finset.sum_congr rfl fun i _ => ?_
  have el : lidx_main_v0 (ix2 r k) i = ix2 r i :=
    funext fun a => Fin.ext (by match a with | ⟨0, _⟩ => rfl | ⟨1, _⟩ => rfl)
  have er : ridx_main_v0 (ix2 r k) i = ix2 i k :=
    funext fun a => Fin.ext (by match a with | ⟨0, _⟩ => rfl | ⟨1, _⟩ => rfl)
  rw [el, er]

/-- The transposed support at node k, row r is the specification's supportT: the transpose swaps the two
    coordinates, and the product inside the sum commutes. -/
theorem supportT_at (x : SX.Idx → EReal) (W : SW.Idx → EReal) (k : Fin 10000) (r : Fin 256) :
    val_main_v1 (F := Ideal) x W (ix2 k r) = supportT x W k r := by
  rw [val_main_v1_apply]
  have e : idx_main_v1 (ix2 k r) = ix2 r k :=
    funext fun a => Fin.ext (by match a with | ⟨0, _⟩ => rfl | ⟨1, _⟩ => rfl)
  rw [e, support_at, supportT_comm]

/-- The aggregation A · (x · W)ᵀ at node o, row r: the contraction over the nodes. -/
theorem aggregate_at (x : SX.Idx → EReal) (A : SA.Idx → EReal) (W : SW.Idx → EReal) (o : Fin 10000) (r : Fin 256) :
    val_main_v2 (F := Ideal) x A W (ix2 o r) = ∑ k : Fin 10000, A (ix2 o k) * supportT x W k r := by
  rw [val_main_v2_apply]
  refine Finset.sum_congr rfl fun k _ => ?_
  have el : lidx_main_v2 (ix2 o r) k = ix2 o k :=
    funext fun a => Fin.ext (by match a with | ⟨0, _⟩ => rfl | ⟨1, _⟩ => rfl)
  have er : ridx_main_v2 (ix2 o r) k = ix2 k r :=
    funext fun a => Fin.ext (by match a with | ⟨0, _⟩ => rfl | ⟨1, _⟩ => rfl)
  rw [el, er, supportT_at]

/-- The aggregation transposed back, at row r, column o. -/
theorem aggregateT_at (x : SX.Idx → EReal) (A : SA.Idx → EReal) (W : SW.Idx → EReal) (r : Fin 256) (o : Fin 10000) :
    val_main_v3 (F := Ideal) x A W (ix2 r o) = ∑ k : Fin 10000, A (ix2 o k) * supportT x W k r := by
  rw [val_main_v3_apply]
  have e : idx_main_v3 (ix2 r o) = ix2 o r :=
    funext fun a => Fin.ext (by match a with | ⟨0, _⟩ => rfl | ⟨1, _⟩ => rfl)
  rw [e, aggregate_at]

/-- The bias spread over the rows, at row r, column o, is the bias at o: first a unit row axis is added, then
    that axis is repeated 256 times. -/
theorem bias_at (b : SB.Idx → EReal) (r : Fin 256) (o : Fin 10000) :
    val_main_v5 (F := Ideal) b (ix2 r o) = b (ix1 o) := by
  rw [val_main_v5_apply, val_main_v4_apply]
  refine congrArg b ?_
  funext a
  match a with
  | ⟨0, _⟩ => rfl

/-! ## The reference's result is the layer's function -/

/-- The reference's last value, as a function of the four arguments, is G. -/
theorem val_eq_G (x : SX.Idx → EReal) (A : SA.Idx → EReal) (W : SW.Idx → EReal) (b : SB.Idx → EReal) :
    val_main_v6 (F := Ideal) x A W b = G x A W b := by
  funext j
  obtain ⟨r, o, rfl⟩ : ∃ (r : Fin 256) (o : Fin 10000), j = ix2 r o := ⟨j 0, j 1, eq_ix2 j⟩
  rw [G_ix2, val_main_v6_apply, aggregateT_at, bias_at]
  rfl

/-- The term the reference's run states for its result — the sum of the twice-transposed double contraction and
    the twice-broadcast bias — is G of the four arguments. -/
theorem result_eq_G (x : (⟨S256x512, .f32⟩ : BufTy).Contents (Elt Ideal)) (A : (⟨S10000x10000, .f32⟩ : BufTy).Contents (Elt Ideal))
    (W : (⟨S512x10000, .f32⟩ : BufTy).Contents (Elt Ideal)) (b : (⟨S10000, .f32⟩ : BufTy).Contents (Elt Ideal)) :
    addf (F := Ideal) (transpose S256x10000 [1, 0] (Host.dotGeneral (F := Ideal) (φ₁ := .f32) (φ₂ := .f32) dot_S10000x10000_S10000x256_S10000x256_1_0_0_1_n_n none A
        (transpose S10000x256 [1, 0] (Host.dotGeneral (F := Ideal) (φ₁ := .f32) (φ₂ := .f32) dot_S256x512_S512x10000_S256x10000_1_0_0_1_n_n none x W)
          transposes_S256x10000_S10000x256_1_0)) transposes_S10000x256_S256x10000_1_0)
      (broadcastInDim S256x10000 ![0, 1] bcast_S1x10000_S256x10000_0_1 (broadcastInDim S1x10000 ![1] bcast_S10000_S1x10000_1 b))
      = G x A W b :=
  (val_main_v6_eq (F := Ideal) x A W b).trans (val_eq_G x A W b)

/-! ## The reference's run, stated with the layer's function -/

/-- Every run of the reference ends with its result array at G of its four argument arrays, and the argument
    arrays unchanged. -/
theorem run_G (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v6)
        = G (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run Cert.ReferenceIdeal.defs _ _).mono
    (fun _ h c => ⟨(h c).1.trans ((val_main_v6_eq _ _ _ _).trans (val_eq_G _ _ _ _)), (h c).2⟩)
    (Cert.ReferenceIdeal.Value.run (F := Ideal) m' ρ')

/-- The reference runs and leaves its argument arrays unchanged. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

end Cert.GraphConv.Ref

end
-- ==== Proof.Claims.lean ====
/-
  The certificate's five claims, assembled.

  Both idealized programs end with their result array at the layer's function G of the four argument arrays —
  the kernel's because every aggregating point leaves its rows of G and the fifty of them cover the array, the
  reference's because its seven operations compose to G — and with the arguments unchanged. From arguments that
  agree, the two results are therefore one array. The idealization rewrote nothing, so what it preserves is
  trivially true; the three frame claims are the runs with the result forgotten.
-/
import proofs.«131987_g21835613733112_rerun558fix_23_35_alg».proof.Defs
import proofs.«131987_g21835613733112_rerun558fix_23_35_alg».proof.Proof.Gen.Kernel
import proofs.«131987_g21835613733112_rerun558fix_23_35_alg».proof.Proof.Gen.KernelIdeal
import proofs.«131987_g21835613733112_rerun558fix_23_35_alg».proof.Proof.Gen.ReferenceIdeal
import proofs.«131987_g21835613733112_rerun558fix_23_35_alg».proof.Proof.Gen.Pre_finite_inputs
import proofs.«131987_g21835613733112_rerun558fix_23_35_alg».proof.Proof.BodyIdeal.Frame
import proofs.«131987_g21835613733112_rerun558fix_23_35_alg».proof.Proof.BodyBits.Frame
import proofs.«131987_g21835613733112_rerun558fix_23_35_alg».proof.Proof.KernelBlocks
import proofs.«131987_g21835613733112_rerun558fix_23_35_alg».proof.Proof.KernelArray
import proofs.«131987_g21835613733112_rerun558fix_23_35_alg».proof.Proof.RefRun

set_option maxRecDepth 16384

noncomputable section

namespace Cert.Proof.GraphConvClaims

open Idealize.ShloMosaic Idealize.ShloMosaic.TcCoe Idealize.SL.Sem
open Cert.GraphConv

/-! ## The frames -/

/-- The kernel as printed runs and leaves its arguments unchanged. -/
theorem frame_k : @Cert.frame_Kernel Cert.Kernel.Gen.facts Cert.Pre_finite_inputs.Gen.facts :=
  fun m ρ _ => Cert.Kernel.Body.frame (F := Bits) m ρ

/-- The idealized kernel runs and leaves its arguments unchanged. -/
theorem frame_ki : @Cert.frame_KernelIdeal Cert.KernelIdeal.Gen.facts Cert.Pre_finite_inputs.Gen.facts :=
  fun m ρ _ => Cert.KernelIdeal.Body.frame (F := Ideal) m ρ

/-- The idealized reference runs and leaves its arguments unchanged. -/
theorem frame_ri : @Cert.frame_ReferenceIdeal Cert.ReferenceIdeal.Gen.facts Cert.Pre_finite_inputs.Gen.facts :=
  Cert.GraphConv.Ref.frame_ri

/-- The idealization rewrote no operation. -/
theorem preserves : Cert.preserves_Kernel_KernelIdeal := trivial

/-! ## The kernel's run, stated with the layer's function -/

/-- Every run of the idealized kernel ends with its result array at G of its four argument arrays, and the
    argument arrays unchanged: the result is the final transpose of the array the aggregating points wrote, and
    each argument is either never written or a window's input. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v5)
        = G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
            (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run Cert.KernelIdeal.defs _ _).mono
    (fun _ h c =>
      ⟨((h c).2 Cert.KernelIdeal.main_v5 (Pipeline.mem_restRefs_of Cert.KernelIdeal.main_v5 (by decide) (by decide))).trans
          (Cert.GraphConv.Arr.tail_eq m c (Cert.GraphConv.Blocks.outBlk_apply m c)),
       ((h c).2 Cert.KernelIdeal.main_arg0 (Pipeline.mem_restRefs_of Cert.KernelIdeal.main_arg0 (by decide) (by decide))).trans
          (Cert.KernelIdeal.Gen.W_main_arg0 m (Cert.KernelIdeal.Body.dats m) c),
       ((h c).1 2).trans (((Cert.KernelIdeal.Body.dats m 0 c).arrAt_in 2 rfl _).trans
          ((Cert.KernelIdeal.Body.A_eq m c 2).trans (Cert.KernelIdeal.Gen.V_main_arg1 m c))),
       ((h c).2 Cert.KernelIdeal.main_arg2 (Pipeline.mem_restRefs_of Cert.KernelIdeal.main_arg2 (by decide) (by decide))).trans
          (Cert.KernelIdeal.Gen.W_main_arg2 m (Cert.KernelIdeal.Body.dats m) c),
       ((h c).2 Cert.KernelIdeal.main_arg3 (Pipeline.mem_restRefs_of Cert.KernelIdeal.main_arg3 (by decide) (by decide))).trans
          (Cert.KernelIdeal.Gen.W_main_arg3 m (Cert.KernelIdeal.Body.dats m) c)⟩)
    (Cert.KernelIdeal.Body.run_main (F := Ideal) m ρ)

/-! ## The two idealized programs agree -/

/-- From memories that agree on the arguments both programs run, end with equal results — G of the arguments —
    and leave the arguments unchanged. -/
theorem algebraic : @Cert.algebraic_KernelIdeal_ReferenceIdeal Cert.KernelIdeal.Gen.facts Cert.ReferenceIdeal.Gen.facts Cert.Pre_finite_inputs.Gen.facts :=
  fun m ρ m' ρ' _ hagree =>
    ⟨fun c => G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
            (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
     kernel_run m ρ,
     (θ_run Cert.ReferenceIdeal.defs _ _).mono
       (fun _ h c => ⟨(h c).1.trans (by rw [(hagree c).1, (hagree c).2.1, (hagree c).2.2.1, (hagree c).2.2.2]), (h c).2⟩)
       (Cert.GraphConv.Ref.run_G m' ρ')⟩

end Cert.Proof.GraphConvClaims

end
-- ==== Proof.lean ====
/-
  The graph-convolution layer  out = (A · (x · W)ᵀ)ᵀ + b  computed by one Pallas kernel, against its jnp reference.

  Inputs: x : f32[256, 512], A : f32[10000, 10000], W : f32[512, 10000], b : f32[10000]; result f32[256, 10000].
  Over the extended reals both programs compute, at row r and column o,
      (∑ k, A (o, k) * (∑ i, W (i, k) * x (r, i))) + b o            (Proof/Spec.lean, `Cert.GraphConv.G`).

  The kernel. The host transposes W and casts Wᵀ and x to bf16 (the identity at the ideal instance) and makes b
  a column. One kernel call runs over 54 grid points with a [10000, 256] scratch sT: points 0..4 each store one
  2000-row slice  Wᵀ-block · xᵀ  of sT = (x · W)ᵀ; points 4..53 each store one 200-row block
  A-block · sT + b-block  of the transposed result, point 4 reading the scratch — its own slice included —
  right after completing it. The host transposes the result back.
    * Frames (Proof/BodyIdeal, and its copy Proof/BodyBits for the word-level program): the body is run once per
      case of its two conditionals; the region's invariant says the scratch agrees with the full sT on the
      slices built so far; the output window is idle before point 4.
    * Value (Proof/Payload, HostSide, KernelBlocks, KernelArray): each matrix product into a zero accumulator is
      a plain sum; each window's block at a point is a rectangle of its array; the fifty written-back blocks
      tile the [10000, 256] output array; the final transpose gives the function above.
  The reference (Proof/RefRun): x · W, transposed, multiplied by A, transposed back, plus b broadcast — the same
  function, the only law between the two spellings being commutativity of the product W (i, k) * x (r, i).
  The idealization rewrote nothing, so `preserves` is trivial. No step uses finiteness of the inputs.
-/
import proofs.«131987_g21835613733112_rerun558fix_23_35_alg».proof.Defs
import proofs.«131987_g21835613733112_rerun558fix_23_35_alg».proof.Proof.Claims

noncomputable section

namespace Cert.Proof

open Cert.Proof.GraphConvClaims

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
